-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S500000x1 : Shape := ⟨2, ![500000, 1]⟩
abbrev S1000000x2 : Shape := ⟨2, ![1000000, 2]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x64 .f32) (main_arg12 : FVec F S64 .f32) (main_arg13 : FVec F S64x64 .f32) (main_arg14 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S64x64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S500000x1 32) (main_arg2 : IVec S1000000x2 32) (main_arg3 : FVec F S64x64 .f32) (main_arg4 : FVec F S64 .f32) (main_arg5 : FVec F S64x64 .f32) (main_arg6 : FVec F S64 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S64x64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S500000x1 : Shape := ⟨2, ![500000, 1]⟩
abbrev S1000000x2 : Shape := ⟨2, ![1000000, 2]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S500000 : Shape := ⟨1, ![500000]⟩
abbrev S_ : Shape := ⟨0, ![]⟩
abbrev S500000x64 : Shape := ⟨2, ![500000, 64]⟩
abbrev S1x64 : Shape := ⟨2, ![1, 64]⟩
abbrev S10000x64 : Shape := ⟨2, ![10000, 64]⟩
abbrev S2000000 : Shape := ⟨1, ![2000000]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1x128 : Shape := ⟨2, ![1, 128]⟩
abbrev S10000x128 : Shape := ⟨2, ![10000, 128]⟩
abbrev S2000000x64 : Shape := ⟨2, ![2000000, 64]⟩
abbrev S2000000x1 : Shape := ⟨2, ![2000000, 1]⟩

abbrev nBuf : Space → Nat
  | .hbm => 60
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S500000x1, .i32⟩
  | .hbm, ⟨2, _⟩ => ⟨S1000000x2, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S100000x64, .bf16⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x64, .bf16⟩
  | .hbm, ⟨26, _⟩ => ⟨S1x64, .f32⟩
  | .hbm, ⟨27, _⟩ => ⟨S1x64, .f32⟩
  | .hbm, ⟨28, _⟩ => ⟨S500000x64, .bf16⟩
  | .hbm, ⟨29, _⟩ => ⟨S2000000, .i32⟩
  | .hbm, ⟨30, _⟩ => ⟨S_, .i32⟩
  | .hbm, ⟨31, _⟩ => ⟨S1000000x2, .i32⟩
  | .hbm, ⟨32, _⟩ => ⟨S1000000x2, .i1⟩
  | .hbm, ⟨33, _⟩ => ⟨S_, .i32⟩
  | .hbm, ⟨34, _⟩ => ⟨S1000000x2, .i32⟩
  | .hbm, ⟨35, _⟩ => ⟨S1000000x2, .i32⟩
  | .hbm, ⟨36, _⟩ => ⟨S1000000x2, .i32⟩
  | .hbm, ⟨37, _⟩ => ⟨S1000000x2x1, .i32⟩
  | .hbm, ⟨38, _⟩ => ⟨S1000000x2x64, .bf16⟩
  | .hbm, ⟨39, _⟩ => ⟨S1000000x128, .bf16⟩
  | .hbm, ⟨40, _⟩ => ⟨S1x128, .f32⟩
  | .hbm, ⟨41, _⟩ => ⟨S1x128, .f32⟩
  | .hbm, ⟨42, _⟩ => ⟨S1000000x128, .bf16⟩
  | .hbm, ⟨43, _⟩ => ⟨S2000000x64, .bf16⟩
  | .hbm, ⟨44, _⟩ => ⟨S500000x64, .f32⟩
  | .hbm, ⟨45, _⟩ => ⟨S_, .f32⟩
  | .hbm, ⟨46, _⟩ => ⟨S100000x64, .f32⟩
  | .hbm, ⟨47, _⟩ => ⟨S500000x1, .i32⟩
  | .hbm, ⟨48, _⟩ => ⟨S100000x64, .f32⟩
  | .hbm, ⟨49, _⟩ => ⟨S2000000x64, .f32⟩
  | .hbm, ⟨50, _⟩ => ⟨S_, .f32⟩
  | .hbm, ⟨51, _⟩ => ⟨S100000x64, .f32⟩
  | .hbm, ⟨52, _⟩ => ⟨S2000000x1, .i32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S64x64, .f32⟩
  | .hbm, ⟨57, _⟩ => ⟨S1x64, .f32⟩
  | .hbm, ⟨58, _⟩ => ⟨S1x64, .f32⟩
  | .hbm, ⟨59, _⟩ => ⟨S100000x64, .f32⟩
  | .local _ .vmem, ⟨0, _⟩ => ⟨S10000x64, .bf16⟩
  | .local _ .vmem, ⟨1, _⟩ => ⟨S10000x64, .bf16⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .bf16⟩
  | .local _ .vmem, ⟨7, _⟩ => ⟨S10000x64, .bf16⟩
  | .local _ .vmem, ⟨8, _⟩ => ⟨S10000x128, .bf16⟩
  | .local _ .vmem, ⟨9, _⟩ => ⟨S10000x128, .bf16⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S10000x128, .bf16⟩
  | .local _ .vmem, ⟨15, _⟩ => ⟨S10000x128, .bf16⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  shapeCasts_S1000000x2_S2000000 : S1000000x2.ShapeCasts S2000000
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  shapeCasts_S1000000x128_S2000000x64 : S1000000x128.ShapeCasts S2000000x64
  bcast_S_S100000x64 : S_.BroadcastsInDim S100000x64 (![] : Fin 0 → Fin S100000x64.rank)
  bcast_S2000000_S2000000x1_0 : S2000000.BroadcastsInDim S2000000x1 (![0] : Fin 1 → Fin S2000000x1.rank)
  slices_S128x64_S64x64_0_0 : S128x64.Slices ![0, 0] S64x64
  slices_S128x64_S64x64_64_0 : S128x64.Slices ![64, 0] S64x64
  shapeCasts_S64x64_S64x64 : S64x64.ShapeCasts S64x64
  gather_S100000x64_S500000x1_S500000x64_1_0_n_n_0_1_164_wf : GatherDims.WF S100000x64 S500000x1 S500000x64 [1] [0] [] [0] [] 1 ![1, 64]
  dot_S10000x64_S64x64_S10000x64_1_0_0_1_n_n_wf : DotDims.WF S10000x64 S64x64 S10000x64 [1] [0] [0] [1] [] []
  gather_S100000x64_S1000000x2x1_S1000000x2x64_2_0_n_n_0_2_164_wf : GatherDims.WF S100000x64 S1000000x2x1 S1000000x2x64 [2] [0] [] [0] [] 2 ![1, 64]
  dot_S10000x128_S128x128_S10000x128_1_0_0_1_n_n_wf : DotDims.WF S10000x128 S128x128 S10000x128 [1] [0] [0] [1] [] []
  scatter_S100000x64_S500000x1_S500000x64_1_0_0_1_wf : ScatterDims.WF S100000x64 S500000x1 S500000x64 [1] [0] [0] 1
  scatter_S100000x64_S2000000x1_S2000000x64_1_0_0_1_wf : ScatterDims.WF S100000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .bf16 = 32 ∨ (Rect.block (s := S500000x64) S10000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S500000x64.size a
  hwx0_5 : ∀ i : grid0.Coords, EltTy.bits .bf16 = 32 ∨ (Rect.block (s := S500000x64) S10000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1000000x128.size a
  hwx1_0 : ∀ i : grid1.Coords, EltTy.bits .bf16 = 32 ∨ (Rect.block (s := S1000000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S1000000x128.size a
  hwx1_5 : ∀ i : grid1.Coords, EltTy.bits .bf16 = 32 ∨ (Rect.block (s := S1000000x128) S10000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .f32 = 32 ∨ (Rect.block (s := S100000x64) S10000x64.size (cc2_transform_7 i) (hinb2_7 i)).WholeWords (EltTy.packing .f32)

variable [Facts₀]

def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x2x1_S1000000x2x64_2_0_n_n_0_2_164 : GatherDims S100000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S100000x64_S1000000x2x1_S1000000x2x64_2_0_n_n_0_2_164_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf

abbrev win0_0 : Pipeline.Window sig grid0 :=
  Pipeline.Window.ofSpec (Memref.whole main_v8) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S500000x1 : Shape := ⟨2, ![500000, 1]⟩
abbrev S1000000x2 : Shape := ⟨2, ![1000000, 2]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S_ : Shape := ⟨0, ![]⟩
abbrev S500000x1x1 : Shape := ⟨3, ![500000, 1, 1]⟩
abbrev S500000x1x64 : Shape := ⟨3, ![500000, 1, 64]⟩
abbrev S500000x64 : Shape := ⟨2, ![500000, 64]⟩
abbrev S1x64 : Shape := ⟨2, ![1, 64]⟩
abbrev S500000 : Shape := ⟨1, ![500000]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1x128 : Shape := ⟨2, ![1, 128]⟩
abbrev S2000000x64 : Shape := ⟨2, ![2000000, 64]⟩
abbrev S2000000 : Shape := ⟨1, ![2000000]⟩
abbrev S2000000x1 : Shape := ⟨2, ![2000000, 1]⟩
abbrev S100000x128 : Shape := ⟨2, ![100000, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S500000x1, .i32⟩
  | .hbm, ⟨2, _⟩ => ⟨S1000000x2, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S_, .i32⟩
  | .hbm, ⟨16, _⟩ => ⟨S500000x1, .i32⟩
  | .hbm, ⟨17, _⟩ => ⟨S500000x1, .i1⟩
  | .hbm, ⟨18, _⟩ => ⟨S_, .i32⟩
  | .hbm, ⟨19, _⟩ => ⟨S500000x1, .i32⟩
  | .hbm, ⟨20, _⟩ => ⟨S500000x1, .i32⟩
  | .hbm, ⟨21, _⟩ => ⟨S500000x1, .i32⟩
  | .hbm, ⟨22, _⟩ => ⟨S500000x1x1, .i32⟩
  | .hbm, ⟨23, _⟩ => ⟨S500000x1x64, .f32⟩
  | .hbm, ⟨24, _⟩ => ⟨S500000x64, .f32⟩
  | .hbm, ⟨25, _⟩ => ⟨S500000x64, .f32⟩
  | .hbm, ⟨26, _⟩ => ⟨S1x64, .f32⟩
  | .hbm, ⟨27, _⟩ => ⟨S500000x64, .f32⟩
  | .hbm, ⟨28, _⟩ => ⟨S500000x64, .f32⟩
  | .hbm, ⟨29, _⟩ => ⟨S_, .f32⟩
  | .hbm, ⟨30, _⟩ => ⟨S500000x64, .f32⟩
  | .hbm, ⟨31, _⟩ => ⟨S500000x64, .f32⟩
  | .hbm, ⟨32, _⟩ => ⟨S500000x64, .f32⟩
  | .hbm, ⟨33, _⟩ => ⟨S1x64, .f32⟩
  | .hbm, ⟨34, _⟩ => ⟨S500000x64, .f32⟩
  | .hbm, ⟨35, _⟩ => ⟨S500000x64, .f32⟩
  | .hbm, ⟨36, _⟩ => ⟨S500000, .i32⟩
  | .hbm, ⟨37, _⟩ => ⟨S_, .i32⟩
  | .hbm, ⟨38, _⟩ => ⟨S1000000x2, .i32⟩
  | .hbm, ⟨39, _⟩ => ⟨S1000000x2, .i1⟩
  | .hbm, ⟨40, _⟩ => ⟨S_, .i32⟩
  | .hbm, ⟨41, _⟩ => ⟨S1000000x2, .i32⟩
  | .hbm, ⟨42, _⟩ => ⟨S1000000x2, .i32⟩
  | .hbm, ⟨43, _⟩ => ⟨S1000000x2, .i32⟩
  | .hbm, ⟨44, _⟩ => ⟨S1000000x2x1, .i32⟩
  | .hbm, ⟨45, _⟩ => ⟨S1000000x2x64, .f32⟩
  | .hbm, ⟨46, _⟩ => ⟨S1000000x128, .f32⟩
  | .hbm, ⟨47, _⟩ => ⟨S1000000x128, .f32⟩
  | .hbm, ⟨48, _⟩ => ⟨S1x128, .f32⟩
  | .hbm, ⟨49, _⟩ => ⟨S1000000x128, .f32⟩
  | .hbm, ⟨50, _⟩ => ⟨S1000000x128, .f32⟩
  | .hbm, ⟨51, _⟩ => ⟨S_, .f32⟩
  | .hbm, ⟨52, _⟩ => ⟨S1000000x128, .f32⟩
  | .hbm, ⟨53, _⟩ => ⟨S1000000x128, .f32⟩
  | .hbm, ⟨54, _⟩ => ⟨S1000000x128, .f32⟩
  | .hbm, ⟨55, _⟩ => ⟨S1x128, .f32⟩
  | .hbm, ⟨56, _⟩ => ⟨S1000000x128, .f32⟩
  | .hbm, ⟨57, _⟩ => ⟨S1000000x128, .f32⟩
  | .hbm, ⟨58, _⟩ => ⟨S2000000x64, .f32⟩
  | .hbm, ⟨59, _⟩ => ⟨S2000000, .i32⟩
  | .hbm, ⟨60, _⟩ => ⟨S_, .f32⟩
  | .hbm, ⟨61, _⟩ => ⟨S100000x64, .f32⟩
  | .hbm, ⟨62, _⟩ => ⟨S500000x1, .i32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S2000000x1, .i32⟩
  | .hbm, ⟨67, _⟩ => ⟨S100000x64, .f32⟩
  | .hbm, ⟨68, _⟩ => ⟨S100000x64, .f32⟩
  | .hbm, ⟨69, _⟩ => ⟨S100000x128, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call0_cst : Ref sig .tc := ⟨.hbm, 29, rfl⟩
abbrev main_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_cst : Ref sig .tc := ⟨.hbm, 74, rfl⟩
abbrev main_call2_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]

class Facts₀ : Prop where
  bcast_S_S500000x1 : S_.BroadcastsInDim S500000x1 (![] : Fin 0 → Fin S500000x1.rank)
  bcast_S500000x1_S500000x1x1_0_1 : S500000x1.BroadcastsInDim S500000x1x1 (![0, 1] : Fin 2 → Fin S500000x1x1.rank)
  shapeCasts_S500000x1x64_S500000x64 : S500000x1x64.ShapeCasts S500000x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  shapeCasts_S500000x1_S500000 : S500000x1.ShapeCasts S500000
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  shapeCasts_S1000000x128_S2000000x64 : S1000000x128.ShapeCasts S2000000x64
  shapeCasts_S1000000x2_S2000000 : S1000000x2.ShapeCasts S2000000
  bcast_S_S100000x64 : S_.BroadcastsInDim S100000x64 (![] : Fin 0 → Fin S100000x64.rank)
  bcast_S500000_S500000x1_0 : S500000.BroadcastsInDim S500000x1 (![0] : Fin 1 → Fin S500000x1.rank)
  bcast_S2000000_S2000000x1_0 : S2000000.BroadcastsInDim S2000000x1 (![0] : Fin 1 → Fin S2000000x1.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S500000x1x1_S500000x1x64_2_0_n_n_0_2_164_wf : GatherDims.WF S100000x64 S500000x1x1 S500000x1x64 [2] [0] [] [0] [] 2 ![1, 64]
  dot_S500000x64_S64x64_S500000x64_1_0_0_1_n_n_wf : DotDims.WF S500000x64 S64x64 S500000x64 [1] [0] [0] [1] [] []
  gather_S100000x64_S1000000x2x1_S1000000x2x64_2_0_n_n_0_2_164_wf : GatherDims.WF S100000x64 S1000000x2x1 S1000000x2x64 [2] [0] [] [0] [] 2 ![1, 64]
  dot_S1000000x128_S128x128_S1000000x128_1_0_0_1_n_n_wf : DotDims.WF S1000000x128 S128x128 S1000000x128 [1] [0] [0] [1] [] []
  scatter_S100000x64_S500000x1_S500000x64_1_0_0_1_wf : ScatterDims.WF S100000x64 S500000x1 S500000x64 [1] [0] [0] 1
  scatter_S100000x64_S2000000x1_S2000000x64_1_0_0_1_wf : ScatterDims.WF S100000x64 S2000000x1 S2000000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S500000x1x1_S500000x1x64_2_0_n_n_0_2_164 : GatherDims S100000x64 S500000x1x1 S500000x1x64 where
  offsetDims := [2]
  collapsedSliceDims := [0]
  operandBatchingDims := []
  startIndicesBatchingDims := []
  startIndexMap := [0]
  indexVectorDim := 2
  sliceSizes := ![1, 64]
  wf := gather_S100000x64_S500000x1x1_S500000x1x64_2_0_n_n_0_2_164_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S100000x64_S1000000x2x1_S1000000x2x64_2_0_n_n_0_2_164 : GatherDims S100000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S100000x64_S1000000x2x1_S1000000x2x64_2_0_n_n_0_2_164_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunValue.lean ====
/-
  The idealized kernel's run with its result array named.

  @main is three pipelined regions among stretches of host operations. Every weakly fair execution ends with
  every buffer that outlives the regions at the contents the last segment boundary gives it: the fold of the host
  stretches and of each region's write-backs from the launch memory. Read at the result's buffer this names the result;
  read at the arguments it says they are unchanged.
-/
import proofs.«111962_j21973052686562_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays end as launched. -/
theorem run_result : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Whole

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibHostLayout.lean ====
/-
  Host layout operations of small rank read at an index.

  A reference written with keepdims and with a bias added along rows broadcasts in two steps: a vector `[a]` to a column
  `[a, 1]` and the column over the row `[a, b]`; a vector `[b]` to one row `[1, b]` and the row down the rows `[a, b]`. A
  leading block of rows is a slice at offset zero. Each is read here at an index built by `ix2`, in the style of the
  library's layout lemmas.
-/
import Idealize.ShloMosaic.Lib.Pipeline.Value
import Idealize.ShloMosaic.Lib.ValueIdx

noncomputable section

namespace Cert.LibHostLayout

open Idealize.ShloMosaic Idealize.ShloMosaic.ValueIdx

variable {α : Type}

/-- GENERAL LEMMA. An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply ![0] h x (ix2 p u) (ix1 p) fun ax => by
    match ax with
    | ⟨0, _⟩ =>
      show p.val = if a = 1 then 0 else p.val
      split
      · have := p.isLt; omega
      · rfl

/-- GENERAL LEMMA. An `[a, 1]` column broadcast in dimensions (0, 1) to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- GENERAL LEMMA. A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply ![1] h x (ix2 u c) (ix1 c) fun ax => by
    match ax with
    | ⟨0, _⟩ =>
      show c.val = if b = 1 then 0 else c.val
      split
      · have := c.isLt; omega
      · rfl

/-- GENERAL LEMMA. A `[1, b]` row broadcast in dimensions (0, 1) to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-- GENERAL LEMMA. The leading `m` rows of an `[n, b]` array, sliced at offset zero, read at `(p, c)` the array at `(p, c)`. -/
theorem slice_rows_apply {n m b : ℕ} (x : (⟨2, ![n, b]⟩ : Shape).Idx → α)
    (h : (⟨2, ![n, b]⟩ : Shape).Slices ![0, 0] ⟨2, ![m, b]⟩) (p : Fin m) (hp : p.val < n) (c : Fin b) :
    extractStridedSlice ⟨2, ![m, b]⟩ ![0, 0] x h (ix2 p c) = x (ix2 (⟨p.val, hp⟩ : Fin n) c) :=
  extractStridedSlice_apply ![0, 0] x h (ix2 p c) (ix2 (⟨p.val, hp⟩ : Fin n) c) fun ax => by
    match ax with
    | ⟨0, _⟩ => show p.val = 0 + p.val; omega
    | ⟨1, _⟩ => show c.val = 0 + c.val; omega

end Cert.LibHostLayout

end
-- ==== Proof.LibLayers.lean ====
/-
  The layers of the message-passing network as functions of whole arrays, and how the host's and the
  kernel's spellings of one layer read as those functions.

  A dense layer of an `n × d` array `X` with weights `W : d × h` and bias `b : h` has the entry
  `(∑ k, X (p, k) * W (k, q)) + b q` at `(p, q)`; `relu` is the entrywise maximum with zero. On the host the
  layer is a `dot_general` plus the bias broadcast first to one row and then down the rows; in a kernel body it is a
  matrix product into a zero accumulator plus the bias, held as a `1 × h` block, broadcast down the rows. Over the
  extended reals both are the same function, because a change of float format is the identity there.
  Every entry of a layer's result depends on one row of its input only, which is what lets a row block of the result
  be computed from the same row block of the input.
-/
import Idealize.ShloMosaic.PureOps.Ideal.Laws
import Idealize.ShloMosaic.Lib.Pipeline.Value
import Idealize.ShloMosaic.Lib.ValueIdx
import proofs.«111962_j21973052686562_2_alg».proof.Proof.LibDotSum
import proofs.«111962_j21973052686562_2_alg».proof.Proof.LibHostLayout

noncomputable section

namespace Cert.Layers

open Idealize.ShloMosaic Idealize.ShloMosaic.ValueIdx

/-- An `n × d` array of extended reals. -/
abbrev Mat (n d : ℕ) : Type := (⟨2, ![n, d]⟩ : Shape).Idx → EReal
/-- A vector of `d` extended reals. -/
abbrev Row (d : ℕ) : Type := (⟨1, ![d]⟩ : Shape).Idx → EReal

/-- The product of `X` with `W`: entry `(p, q)` is `∑ k, X (p, k) * W (k, q)`. -/
def mm {n d h : ℕ} (X : Mat n d) (W : Mat d h) : Mat n h :=
  fun i => ∑ k : Fin d, X (ix2 (i 0) k) * W (ix2 k (i 1))

/-- The bias `b` added to every row. -/
def addRow {n h : ℕ} (Y : Mat n h) (b : Row h) : Mat n h := fun i => Y i + b (ix1 (i 1))

/-- A dense layer: the product plus the bias on every row. -/
def dense {n d h : ℕ} (X : Mat n d) (W : Mat d h) (b : Row h) : Mat n h := addRow (mm X W) b

/-- The entrywise maximum with zero (zero kept as the float word it is printed as). -/
def relu {n h : ℕ} (Y : Mat n h) : Mat n h := fun i => max (Y i) (Ideal.ofBits .f32 0x00000000#32)

/-- The one row of a `1 × h` array, as a vector. -/
def rowOf {h : ℕ} (B : Mat 1 h) : Row h := fun i => B (ix2 (0 : Fin 1) (i 0))

/-! ## Each entry depends on one row of the input -/

theorem mm_row {n n' d h : ℕ} (X : Mat n d) (X' : Mat n' d) (W : Mat d h) (p : Fin n) (p' : Fin n') (q : Fin h)
    (hX : ∀ k : Fin d, X (ix2 p k) = X' (ix2 p' k)) : mm X W (ix2 p q) = mm X' W (ix2 p' q) := by
  unfold mm
  exact Finset.sum_congr rfl fun k _ => congrArg (· * W (ix2 k q)) (hX k)

theorem dense_row {n n' d h : ℕ} (X : Mat n d) (X' : Mat n' d) (W : Mat d h) (b : Row h) (p : Fin n) (p' : Fin n')
    (q : Fin h) (hX : ∀ k : Fin d, X (ix2 p k) = X' (ix2 p' k)) : dense X W b (ix2 p q) = dense X' W b (ix2 p' q) := by
  unfold dense addRow
  exact congrArg (· + b (ix1 q)) (mm_row X X' W p p' q hX)

theorem relu_row {n n' h : ℕ} (Y : Mat n h) (Y' : Mat n' h) (p : Fin n) (p' : Fin n') (q : Fin h)
    (hY : Y (ix2 p q) = Y' (ix2 p' q)) : relu Y (ix2 p q) = relu Y' (ix2 p' q) := by
  unfold relu
  exact congrArg (max · _) hY

/-! ## The host's spelling -/

/-- GENERAL LEMMA. The host's `dot_general` of a plain `[n, d] × [d, h]` record is the product. -/
theorem host_dot {n d h : ℕ} {φ₁ φ₂ : FTy}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (prec : Option ContractPrecision)
    (X : FVec Ideal (⟨2, ![n, d]⟩ : Shape) φ₁) (W : FVec Ideal (⟨2, ![d, h]⟩ : Shape) φ₂) :
    Host.dotGeneral D prec X W = mm X W := by
  funext j
  show FloatOps.dotGeneral D prec .single X W j = _
  rw [Ideal.dotGeneral_apply]
  exact Cert.LibDotSum.sum_contr_eq_sum_fin D hrank hsize hl0 hl1 hr0 hr1 X W j

/-- GENERAL LEMMA. The kernel's matrix product into a zero accumulator, of a plain record, is the product. -/
theorem kernel_matmul {n d h : ℕ} {φ₁ φ₂ : FTy}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (prec : Option ContractPrecision)
    (X : FVec Ideal (⟨2, ![n, d]⟩ : Shape) φ₁) (W : FVec Ideal (⟨2, ![d, h]⟩ : Shape) φ₂) :
    matmul D prec X W (constant (F := Ideal) (⟨2, ![n, h]⟩ : Shape) .f32 0x00000000#32) = mm X W := by
  funext j
  show FloatOps.matmul D prec X W (constant (F := Ideal) (⟨2, ![n, h]⟩ : Shape) .f32 0x00000000#32) j = _
  rw [Ideal.matmul_constant_zero_apply]
  exact Cert.LibDotSum.sum_contr_eq_sum_fin D hrank hsize hl0 hl1 hr0 hr1 X W j

/-- GENERAL LEMMA. The host's bias: a vector broadcast to one row and the row broadcast down the rows, added. -/
theorem host_addRow {n h : ℕ} (Y : FVec Ideal (⟨2, ![n, h]⟩ : Shape) .f32) (b : FVec Ideal (⟨1, ![h]⟩ : Shape) .f32)
    (h1 : (⟨1, ![h]⟩ : Shape).BroadcastsInDim ⟨2, ![1, h]⟩ ![1])
    (h2 : (⟨2, ![1, h]⟩ : Shape).BroadcastsInDim ⟨2, ![n, h]⟩ ![0, 1]) :
    addf Y (broadcastInDim ⟨2, ![n, h]⟩ ![0, 1] h2 (broadcastInDim ⟨2, ![1, h]⟩ ![1] h1 b)) = addRow Y b := by
  funext j
  obtain ⟨p, q, rfl⟩ : ∃ (p : Fin n) (q : Fin h), j = ix2 p q := ⟨j 0, j 1, eq_ix2 j⟩
  show Y (ix2 p q) + _ = Y (ix2 p q) + b (ix1 q)
  rw [Cert.LibHostLayout.broadcastInDim_1b_ab_apply, Cert.LibHostLayout.broadcastInDim_b_1b_apply]

/-- GENERAL LEMMA. The host's relu: the maximum with the zero constant broadcast to the array. -/
theorem host_relu {n h : ℕ} (Y : FVec Ideal (⟨2, ![n, h]⟩ : Shape) .f32)
    (h0 : (⟨0, ![]⟩ : Shape).BroadcastsInDim ⟨2, ![n, h]⟩ ![]) :
    maximumf Y (broadcastInDim ⟨2, ![n, h]⟩ ![] h0 (constant (F := Ideal) (⟨0, ![]⟩ : Shape) .f32 0x00000000#32)) = relu Y := by
  funext j
  show max (Y j) _ = max (Y j) _
  rw [broadcastInDim_apply ![] h0 _ j ix0 (fun a => a.elim0)]
  rfl

/-! ## The kernel's spelling -/

/-- GENERAL LEMMA. The kernel's bias: the `1 × h` block broadcast down the rows, added. -/
theorem kernel_addRow {n h : ℕ} (Y : FVec Ideal (⟨2, ![n, h]⟩ : Shape) .f32) (B : FVec Ideal (⟨2, ![1, h]⟩ : Shape) .f32)
    (hb : (⟨2, ![1, h]⟩ : Shape).Broadcasts ⟨2, ![n, h]⟩) :
    addf Y (broadcastTo ⟨2, ![n, h]⟩ B hb) = addRow Y (rowOf B) := by
  funext j
  obtain ⟨p, q, rfl⟩ : ∃ (p : Fin n) (q : Fin h), j = ix2 p q := ⟨j 0, j 1, eq_ix2 j⟩
  show Y (ix2 p q) + _ = Y (ix2 p q) + B (ix2 (0 : Fin 1) q)
  rw [broadcastTo_apply B hb (ix2 p q) (ix2 (0 : Fin 1) q) (fun a => by
    match a with
    | ⟨0, _⟩ => rfl
    | ⟨1, _⟩ =>
      show q.val = if h = 1 then 0 else q.val
      split
      · have := q.isLt; omega
      · rfl)]

/-- GENERAL LEMMA. The kernel's relu: the maximum with the zero scalar splat. -/
theorem kernel_relu {n h : ℕ} (Y : FVec Ideal (⟨2, ![n, h]⟩ : Shape) .f32) :
    maximumf Y (broadcast ⟨2, ![n, h]⟩ (Scalar.ofBits (F := Ideal) .f32 0x00000000#32)) = relu Y := rfl

/-- A change of float format is the identity on the extended reals. -/
theorem truncf_id {s : Shape} {φ ψ : FTy} (x : FVec Ideal s φ) (h : ψ.bits < φ.bits) : (truncf ψ x h : FVec Ideal s ψ) = x := rfl
theorem extf_id {s : Shape} {φ ψ : FTy} (x : FVec Ideal s φ) (h : φ.bits < ψ.bits) : (extf ψ x h : FVec Ideal s ψ) = x := rfl

end Cert.Layers

end
-- ==== Proof.Msg1.lean ====
/-
  The first region's result: the messages of the unary relation, as one function of the arrays the region finds.

  The region runs the two-layer network on row blocks of 10000 rows: point `t` of the grid reads rows
  `10000·t … 10000·t + 9999` of the gathered rows, the whole weight matrices and the biases (held as one-row arrays),
  and writes the same rows of the result. Every entry of a layer depends on one row of its input only, so the row
  block a point writes is the same rows of the network applied to the whole array; the 50 blocks tile the result.
-/
import proofs.«111962_j21973052686562_2_alg».proof.Proof.Gen.KernelIdeal.Frame
import proofs.«111962_j21973052686562_2_alg».proof.Proof.LibLayers
import Idealize.ShloMosaic.Lib.Pipeline.Value
import Idealize.ShloMosaic.Lib.Tactic

set_option maxRecDepth 16384

noncomputable section

namespace Cert.KernelIdeal.Msg1

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-! ## The body's matrix product is the plain one -/

theorem dl0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dl1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem dr0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem dr1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's value: the two dense layers with a relu between, of the loaded blocks. -/
theorem pay_eq (x0 : Vec Ideal S10000x64 .bf16) (x1 : Vec Ideal S64x64 .f32) (x2 : Vec Ideal S1x64 .f32)
    (x3 : Vec Ideal S64x64 .f32) (x4 : Vec Ideal S1x64 .f32) :
    k0_pay1 x0 x1 x2 x3 x4 = dense (relu (dense x0 x1 (rowOf x2))) x3 (rowOf x4) := by
  unfold k0_pay1
  dsimp only
  rw [shapeCast_self, shapeCast_self, shapeCast_self]
  rw [truncf_id, truncf_id, truncf_id, truncf_id]
  rw [kernel_matmul dot_S10000x64_S64x64_S10000x64_1_0_0_1_n_n rfl rfl dl0 dl1 dr0 dr1, kernel_addRow, kernel_relu,
    kernel_matmul dot_S10000x64_S64x64_S10000x64_1_0_0_1_n_n rfl rfl dl0 dl1 dr0 dr1, kernel_addRow]
  rfl

/-! ## The windows' blocks -/

/-- The printed index maps over the grid: the weights' and biases' one block is the whole array; the rows' and the
    result's block index is the point's number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the rows' block at point `t` is row `10000·t + r` of the array. -/
theorem rows_blk (c : Dev nD) (t : Fin cfg0.N) (r : Fin 10000) (k : Fin 64) (p : Fin 500000)
    (hp : p.val = 10000 * t.val + r.val) :
    (iblk0 V c 0 t : S10000x64.Idx → EReal) (ix2 r k) = (V c main_v8 : S500000x64.Idx → EReal) (ix2 p k) := by
  obtain ⟨e0, e1, -⟩ := idx_facts t
  show (V c main_v8 : S500000x64.Idx → EReal) (((cfg0.win 0).blk t).view.emb (ix2 r k)) = _
  refine congrArg _ (funext fun a => Fin.ext ?_)
  match a with
  | ⟨0, _⟩ => show win0_0.index t (0 : Fin 2) * 10000 + 1 * r.val = p.val; rw [e0, hp]; omega
  | ⟨1, _⟩ => show win0_0.index t (1 : Fin 2) * 64 + 1 * k.val = k.val; rw [e1]; omega

/-- The first weight matrix's block is the whole matrix. -/
theorem w1_blk (c : Dev nD) (t : Fin cfg0.N) : (iblk0 V c 1 t : S64x64.Idx → EReal) = V c main_arg3 := by
  obtain ⟨-, -, e0, e1, -⟩ := idx_facts t
  funext y
  show (V c main_arg3 : S64x64.Idx → EReal) (((cfg0.win 1).blk t).view.emb y) = _
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

theorem b1_blk (c : Dev nD) (t : Fin cfg0.N) : (iblk0 V c 2 t : S1x64.Idx → EReal) = V c main_v9 := by
  obtain ⟨-, -, -, -, e0, e1, -⟩ := idx_facts t
  funext y
  show (V c main_v9 : S1x64.Idx → EReal) (((cfg0.win 2).blk t).view.emb y) = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

theorem w2_blk (c : Dev nD) (t : Fin cfg0.N) : (iblk0 V c 3 t : S64x64.Idx → EReal) = V c main_arg5 := by
  obtain ⟨-, -, -, -, -, -, e0, e1, -⟩ := idx_facts t
  funext y
  show (V c main_arg5 : S64x64.Idx → EReal) (((cfg0.win 3).blk t).view.emb y) = _
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

theorem b2_blk (c : Dev nD) (t : Fin cfg0.N) : (iblk0 V c 4 t : S1x64.Idx → EReal) = V c main_v10 := by
  obtain ⟨-, -, -, -, -, -, -, -, e0, e1, -⟩ := idx_facts t
  funext y
  show (V c main_v10 : S1x64.Idx → EReal) (((cfg0.win 4).blk t).view.emb y) = _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-! ## From the blocks to the array -/

/-- The messages of this relation: the network applied to the whole array of gathered rows as the region finds it. -/
def messages (c : Dev nD) : S500000x64.Idx → EReal :=
  dense (relu (dense (V c main_v8 : S500000x64.Idx → EReal) (V c main_arg3 : S64x64.Idx → EReal) (rowOf (V c main_v9 : S1x64.Idx → EReal))))
    (V c main_arg5 : S64x64.Idx → EReal) (rowOf (V c main_v10 : S1x64.Idx → EReal))

/-- What point `t` writes back is block `t` of the messages. -/
theorem flushed_eq (c : Dev nD) (t : Fin cfg0.N) :
    (dat0 V c).flushed 5 t = ((cfg0.win 5).blk t).view.read (Elt Ideal) (messages V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  rw [pay_eq, w1_blk, b1_blk, w2_blk, b2_blk]
  obtain ⟨-, -, -, -, -, -, -, -, -, -, e0, e1⟩ := idx_facts t
  funext j
  obtain ⟨r, q, rfl⟩ : ∃ (r : Fin 10000) (q : Fin 64), j = ix2 r q := ⟨j 0, j 1, eq_ix2 j⟩
  have hN : cfg0.N = 50 := N_0
  have ht : t.val < 50 := hN ▸ t.isLt
  have hemb : ((cfg0.win 5).blk t).view.emb (ix2 r q) = (ix2 (⟨10000 * t.val + r.val, by have := r.isLt; omega⟩ : Fin 500000) q : S500000x64.Idx) := by
    funext a; apply Fin.ext
    match a with
    | ⟨0, _⟩ => show win0_5.index t (0 : Fin 2) * 10000 + 1 * r.val = 10000 * t.val + r.val; rw [e0]; omega
    | ⟨1, _⟩ => show win0_5.index t (1 : Fin 2) * 64 + 1 * q.val = q.val; rw [e1]; omega
  show dense (relu (dense (iblk0 V c 0 t : S10000x64.Idx → EReal) _ _)) _ _ (ix2 r q) = messages V c (((cfg0.win 5).blk t).view.emb (ix2 r q))
  rw [hemb]
  unfold messages
  refine dense_row _ _ _ _ r _ q fun k => ?_
  refine relu_row _ _ r _ k ?_
  refine dense_row _ _ _ _ r _ k fun k' => ?_
  exact rows_blk V c t r k' _ rfl

/-- An index of the result is in point `t`'s block iff its row is among that block's rows. -/
theorem mem_blk (t : Fin cfg0.N) (i : S500000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v11).slice (win0_5.rect t)).set ↔ _
  rw [View.set_slice_whole, Rect.mem_set_unit]
  exact Iff.rfl

/-- The result array after the region: the messages. Row `p` is written by point `p / 10000`. -/
theorem final (c : Dev nD) : (dat0 V c).arrAt 5 cfg0.N = messages V c :=
  (dat0 V c).arrAt_eq_of_cover 5 (messages V c) (fun t _ => flushed_eq V c t) fun i => by
    have hN : cfg0.N = 50 := N_0
    have hi0 : (i 0).val < 500000 := (i 0).isLt
    have hi1 : (i 1).val < 64 := (i 1).isLt
    let t : Fin cfg0.N := ⟨(i 0).val / 10000, by rw [hN]; omega⟩
    obtain ⟨-, -, -, -, -, -, -, -, -, -, e0, e1⟩ := idx_facts t
    refine ⟨t, flush0_5 t, ?_⟩
    rw [mem_blk]
    intro a
    match a with
    | ⟨0, _⟩ => show win0_5.index t (0 : Fin 2) * 10000 ≤ (i 0).val ∧ (i 0).val < win0_5.index t (0 : Fin 2) * 10000 + 10000; rw [e0]; show (i 0).val / 10000 * 10000 ≤ (i 0).val ∧ (i 0).val < (i 0).val / 10000 * 10000 + 10000; omega
    | ⟨1, _⟩ => show win0_5.index t (1 : Fin 2) * 64 ≤ (i 1).val ∧ (i 1).val < win0_5.index t (1 : Fin 2) * 64 + 64; rw [e1]; omega

end Cert.KernelIdeal.Msg1

end
-- ==== Proof.Msg2.lean ====
/-
  The second region's result: the messages of the binary relation, as one function of the arrays the region finds.

  The region runs the two-layer network on row blocks of 10000 rows: point `t` of the grid reads rows
  `10000·t … 10000·t + 9999` of the gathered rows, the whole weight matrices and the biases (held as one-row arrays),
  and writes the same rows of the result. Every entry of a layer depends on one row of its input only, so the row
  block a point writes is the same rows of the network applied to the whole array; the 100 blocks tile the result.
-/
import proofs.«111962_j21973052686562_2_alg».proof.Proof.Gen.KernelIdeal.Frame
import proofs.«111962_j21973052686562_2_alg».proof.Proof.LibLayers
import Idealize.ShloMosaic.Lib.Pipeline.Value
import Idealize.ShloMosaic.Lib.Tactic

set_option maxRecDepth 16384

noncomputable section

namespace Cert.KernelIdeal.Msg2

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-! ## The body's matrix product is the plain one -/

theorem dl0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dl1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem dr0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem dr1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's value: the two dense layers with a relu between, of the loaded blocks. -/
theorem pay_eq (x0 : Vec Ideal S10000x128 .bf16) (x1 : Vec Ideal S128x128 .f32) (x2 : Vec Ideal S1x128 .f32)
    (x3 : Vec Ideal S128x128 .f32) (x4 : Vec Ideal S1x128 .f32) :
    k1_pay1 x0 x1 x2 x3 x4 = dense (relu (dense x0 x1 (rowOf x2))) x3 (rowOf x4) := by
  unfold k1_pay1
  dsimp only
  rw [shapeCast_self, shapeCast_self, shapeCast_self]
  rw [truncf_id, truncf_id, truncf_id, truncf_id]
  rw [kernel_matmul dot_S10000x128_S128x128_S10000x128_1_0_0_1_n_n rfl rfl dl0 dl1 dr0 dr1, kernel_addRow, kernel_relu,
    kernel_matmul dot_S10000x128_S128x128_S10000x128_1_0_0_1_n_n rfl rfl dl0 dl1 dr0 dr1, kernel_addRow]
  rfl

/-! ## The windows' blocks -/

/-- The printed index maps over the grid: the weights' and biases' one block is the whole array; the rows' and the
    result's block index is the point's number. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of the rows' block at point `t` is row `10000·t + r` of the array. -/
theorem rows_blk (c : Dev nD) (t : Fin cfg1.N) (r : Fin 10000) (k : Fin 128) (p : Fin 1000000)
    (hp : p.val = 10000 * t.val + r.val) :
    (iblk1 V c 0 t : S10000x128.Idx → EReal) (ix2 r k) = (V c main_v20 : S1000000x128.Idx → EReal) (ix2 p k) := by
  obtain ⟨e0, e1, -⟩ := idx_facts t
  show (V c main_v20 : S1000000x128.Idx → EReal) (((cfg1.win 0).blk t).view.emb (ix2 r k)) = _
  refine congrArg _ (funext fun a => Fin.ext ?_)
  match a with
  | ⟨0, _⟩ => show win1_0.index t (0 : Fin 2) * 10000 + 1 * r.val = p.val; rw [e0, hp]; omega
  | ⟨1, _⟩ => show win1_0.index t (1 : Fin 2) * 128 + 1 * k.val = k.val; rw [e1]; omega

/-- The first weight matrix's block is the whole matrix. -/
theorem w1_blk (c : Dev nD) (t : Fin cfg1.N) : (iblk1 V c 1 t : S128x128.Idx → EReal) = V c main_arg7 := by
  obtain ⟨-, -, e0, e1, -⟩ := idx_facts t
  funext y
  show (V c main_arg7 : S128x128.Idx → EReal) (((cfg1.win 1).blk t).view.emb y) = _
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

theorem b1_blk (c : Dev nD) (t : Fin cfg1.N) : (iblk1 V c 2 t : S1x128.Idx → EReal) = V c main_v21 := by
  obtain ⟨-, -, -, -, e0, e1, -⟩ := idx_facts t
  funext y
  show (V c main_v21 : S1x128.Idx → EReal) (((cfg1.win 2).blk t).view.emb y) = _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem w2_blk (c : Dev nD) (t : Fin cfg1.N) : (iblk1 V c 3 t : S128x128.Idx → EReal) = V c main_arg9 := by
  obtain ⟨-, -, -, -, -, -, e0, e1, -⟩ := idx_facts t
  funext y
  show (V c main_arg9 : S128x128.Idx → EReal) (((cfg1.win 3).blk t).view.emb y) = _
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem b2_blk (c : Dev nD) (t : Fin cfg1.N) : (iblk1 V c 4 t : S1x128.Idx → EReal) = V c main_v22 := by
  obtain ⟨-, -, -, -, -, -, -, -, e0, e1, -⟩ := idx_facts t
  funext y
  show (V c main_v22 : S1x128.Idx → EReal) (((cfg1.win 4).blk t).view.emb y) = _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## From the blocks to the array -/

/-- The messages of this relation: the network applied to the whole array of gathered rows as the region finds it. -/
def messages (c : Dev nD) : S1000000x128.Idx → EReal :=
  dense (relu (dense (V c main_v20 : S1000000x128.Idx → EReal) (V c main_arg7 : S128x128.Idx → EReal) (rowOf (V c main_v21 : S1x128.Idx → EReal))))
    (V c main_arg9 : S128x128.Idx → EReal) (rowOf (V c main_v22 : S1x128.Idx → EReal))

/-- What point `t` writes back is block `t` of the messages. -/
theorem flushed_eq (c : Dev nD) (t : Fin cfg1.N) :
    (dat1 V c).flushed 5 t = ((cfg1.win 5).blk t).view.read (Elt Ideal) (messages V c) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x128) hz, View.ld_unit_zero (S := S1x128) hz]
  rw [pay_eq, w1_blk, b1_blk, w2_blk, b2_blk]
  obtain ⟨-, -, -, -, -, -, -, -, -, -, e0, e1⟩ := idx_facts t
  funext j
  obtain ⟨r, q, rfl⟩ : ∃ (r : Fin 10000) (q : Fin 128), j = ix2 r q := ⟨j 0, j 1, eq_ix2 j⟩
  have hN : cfg1.N = 100 := N_1
  have ht : t.val < 100 := hN ▸ t.isLt
  have hemb : ((cfg1.win 5).blk t).view.emb (ix2 r q) = (ix2 (⟨10000 * t.val + r.val, by have := r.isLt; omega⟩ : Fin 1000000) q : S1000000x128.Idx) := by
    funext a; apply Fin.ext
    match a with
    | ⟨0, _⟩ => show win1_5.index t (0 : Fin 2) * 10000 + 1 * r.val = 10000 * t.val + r.val; rw [e0]; omega
    | ⟨1, _⟩ => show win1_5.index t (1 : Fin 2) * 128 + 1 * q.val = q.val; rw [e1]; omega
  show dense (relu (dense (iblk1 V c 0 t : S10000x128.Idx → EReal) _ _)) _ _ (ix2 r q) = messages V c (((cfg1.win 5).blk t).view.emb (ix2 r q))
  rw [hemb]
  unfold messages
  refine dense_row _ _ _ _ r _ q fun k => ?_
  refine relu_row _ _ r _ k ?_
  refine dense_row _ _ _ _ r _ k fun k' => ?_
  exact rows_blk V c t r k' _ rfl

/-- An index of the result is in point `t`'s block iff its row is among that block's rows. -/
theorem mem_blk (t : Fin cfg1.N) (i : S1000000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v23).slice (win1_5.rect t)).set ↔ _
  rw [View.set_slice_whole, Rect.mem_set_unit]
  exact Iff.rfl

/-- The result array after the region: the messages. Row `p` is written by point `p / 10000`. -/
theorem final (c : Dev nD) : (dat1 V c).arrAt 5 cfg1.N = messages V c :=
  (dat1 V c).arrAt_eq_of_cover 5 (messages V c) (fun t _ => flushed_eq V c t) fun i => by
    have hN : cfg1.N = 100 := N_1
    have hi0 : (i 0).val < 1000000 := (i 0).isLt
    have hi1 : (i 1).val < 128 := (i 1).isLt
    let t : Fin cfg1.N := ⟨(i 0).val / 10000, by rw [hN]; omega⟩
    obtain ⟨-, -, -, -, -, -, -, -, -, -, e0, e1⟩ := idx_facts t
    refine ⟨t, flush1_5 t, ?_⟩
    rw [mem_blk]
    intro a
    match a with
    | ⟨0, _⟩ => show win1_5.index t (0 : Fin 2) * 10000 ≤ (i 0).val ∧ (i 0).val < win1_5.index t (0 : Fin 2) * 10000 + 10000; rw [e0]; show (i 0).val / 10000 * 10000 ≤ (i 0).val ∧ (i 0).val < (i 0).val / 10000 * 10000 + 10000; omega
    | ⟨1, _⟩ => show win1_5.index t (1 : Fin 2) * 128 ≤ (i 1).val ∧ (i 1).val < win1_5.index t (1 : Fin 2) * 128 + 128; rw [e1]; omega

end Cert.KernelIdeal.Msg2

end
-- ==== Proof.Upd.lean ====
/-
  The third region's result: the node update, as one function of the arrays the region finds.

  Point `t` of the grid reads rows `10000·t … 10000·t + 9999` of the node embeddings and of the aggregated messages,
  the two halves of the first update matrix, the second update matrix and the two biases, and writes the same rows of
  the result: the embeddings times the upper half plus the aggregate times the lower half plus the bias, relu, then the
  second dense layer. Every entry depends on one row of the embeddings and one row of the aggregate, and the ten blocks
  tile the result.
-/
import proofs.«111962_j21973052686562_2_alg».proof.Proof.Gen.KernelIdeal.Frame
import proofs.«111962_j21973052686562_2_alg».proof.Proof.LibLayers
import Idealize.ShloMosaic.Lib.Pipeline.Value
import Idealize.ShloMosaic.Lib.Tactic

set_option maxRecDepth 16384

noncomputable section

namespace Cert.KernelIdeal.Upd

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- The entrywise sum of two arrays. -/
def plus {n h : ℕ} (Y Z : Mat n h) : Mat n h := fun i => Y i + Z i

theorem plus_row {n n' h : ℕ} (Y Z : Mat n h) (Y' Z' : Mat n' h) (p : Fin n) (p' : Fin n') (q : Fin h)
    (hY : Y (ix2 p q) = Y' (ix2 p' q)) (hZ : Z (ix2 p q) = Z' (ix2 p' q)) : plus Y Z (ix2 p q) = plus Y' Z' (ix2 p' q) := by
  unfold plus
  rw [hY, hZ]

theorem addRow_row {n n' h : ℕ} (Y : Mat n h) (Y' : Mat n' h) (b : Row h) (p : Fin n) (p' : Fin n') (q : Fin h)
    (hY : Y (ix2 p q) = Y' (ix2 p' q)) : addRow Y b (ix2 p q) = addRow Y' b (ix2 p' q) := by
  unfold addRow
  exact congrArg (· + b (ix1 q)) hY

/-- The node update of embeddings `X` and aggregate `A`: `relu (X·Wa + A·Wb + b1)·W2 + b2`. -/
def update {n d h o : ℕ} (X A : Mat n d) (Wa Wb : Mat d h) (b1 : Row h) (W2 : Mat h o) (b2 : Row o) : Mat n o :=
  dense (relu (addRow (plus (mm X Wa) (mm A Wb)) b1)) W2 b2

theorem update_row {n n' d h o : ℕ} (X A : Mat n d) (X' A' : Mat n' d) (Wa Wb : Mat d h) (b1 : Row h) (W2 : Mat h o) (b2 : Row o)
    (p : Fin n) (p' : Fin n') (q : Fin o) (hX : ∀ k : Fin d, X (ix2 p k) = X' (ix2 p' k)) (hA : ∀ k : Fin d, A (ix2 p k) = A' (ix2 p' k)) :
    update X A Wa Wb b1 W2 b2 (ix2 p q) = update X' A' Wa Wb b1 W2 b2 (ix2 p' q) := by
  unfold update
  refine dense_row _ _ _ _ p p' q fun k => ?_
  refine relu_row _ _ p p' k ?_
  refine addRow_row _ _ _ p p' k ?_
  exact plus_row _ _ _ _ p p' k (mm_row X X' Wa p p' k hX) (mm_row A A' Wb p p' k hA)

variable (V : (c : Dev nD) → (b : Ref sig .tc) → Buf (Elt Ideal) ((c : Thread nD τ).loc b))

theorem hz : (![0, 0] : Fin 2 → Nat) = fun _ => 0 := funext fun a => by fin_cases a <;> rfl

/-! ## The body's matrix product is the plain one -/

theorem dl0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dl1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem dr0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem dr1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's value: the update of the loaded blocks. -/
theorem pay_eq (x0 x1 : Vec Ideal S10000x64 .f32) (x2 x3 : Vec Ideal S64x64 .f32) (x4 : Vec Ideal S1x64 .f32)
    (x5 : Vec Ideal S64x64 .f32) (x6 : Vec Ideal S1x64 .f32) :
    k2_pay1 x0 x1 x2 x3 x4 x5 x6 = update x0 x1 x2 x3 (rowOf x4) x5 (rowOf x6) := by
  unfold k2_pay1
  dsimp only
  rw [shapeCast_self, shapeCast_self, shapeCast_self, shapeCast_self, shapeCast_self]
  rw [truncf_id, truncf_id, truncf_id, truncf_id, truncf_id, truncf_id]
  rw [kernel_matmul dot_S10000x64_S64x64_S10000x64_1_0_0_1_n_n rfl rfl dl0 dl1 dr0 dr1, kernel_matmul dot_S10000x64_S64x64_S10000x64_1_0_0_1_n_n rfl rfl dl0 dl1 dr0 dr1, kernel_addRow, kernel_relu,
    kernel_matmul dot_S10000x64_S64x64_S10000x64_1_0_0_1_n_n rfl rfl dl0 dl1 dr0 dr1, kernel_addRow]
  rfl

/-! ## The windows' blocks -/

/-- The printed index maps over the grid: the weights' and biases' one block is the whole array; the two row inputs' and
    the result's block index is the point's number. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `r` of the embeddings' block at point `t` is row `10000·t + r` of the array; the same for the aggregate's. -/
theorem emb_blk (c : Dev nD) (t : Fin cfg2.N) (r : Fin 10000) (k : Fin 64) (p : Fin 100000)
    (hp : p.val = 10000 * t.val + r.val) :
    (iblk2 V c 0 t : S10000x64.Idx → EReal) (ix2 r k) = (V c main_arg0 : S100000x64.Idx → EReal) (ix2 p k) := by
  obtain ⟨e0, e1, -⟩ := idx_facts t
  show (V c main_arg0 : S100000x64.Idx → EReal) (((cfg2.win 0).blk t).view.emb (ix2 r k)) = _
  refine congrArg _ (funext fun a => Fin.ext ?_)
  match a with
  | ⟨0, _⟩ => show win2_0.index t (0 : Fin 2) * 10000 + 1 * r.val = p.val; rw [e0, hp]; omega
  | ⟨1, _⟩ => show win2_0.index t (1 : Fin 2) * 64 + 1 * k.val = k.val; rw [e1]; omega

theorem agg_blk (c : Dev nD) (t : Fin cfg2.N) (r : Fin 10000) (k : Fin 64) (p : Fin 100000)
    (hp : p.val = 10000 * t.val + r.val) :
    (iblk2 V c 1 t : S10000x64.Idx → EReal) (ix2 r k) = (V c main_v33 : S100000x64.Idx → EReal) (ix2 p k) := by
  obtain ⟨-, -, e0, e1, -⟩ := idx_facts t
  show (V c main_v33 : S100000x64.Idx → EReal) (((cfg2.win 1).blk t).view.emb (ix2 r k)) = _
  refine congrArg _ (funext fun a => Fin.ext ?_)
  match a with
  | ⟨0, _⟩ => show win2_1.index t (0 : Fin 2) * 10000 + 1 * r.val = p.val; rw [e0, hp]; omega
  | ⟨1, _⟩ => show win2_1.index t (1 : Fin 2) * 64 + 1 * k.val = k.val; rw [e1]; omega

/-- Each weight's and bias's block is the whole array. -/
theorem wa_blk (c : Dev nD) (t : Fin cfg2.N) : (iblk2 V c 2 t : S64x64.Idx → EReal) = V c main_v34 := by
  obtain ⟨-, -, -, -, e0, e1, -⟩ := idx_facts t
  funext y
  show (V c main_v34 : S64x64.Idx → EReal) (((cfg2.win 2).blk t).view.emb y) = _
  refine congrArg _ (funext fun a => Fin.ext ?_)
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

theorem wb_blk (c : Dev nD) (t : Fin cfg2.N) : (iblk2 V c 3 t : S64x64.Idx → EReal) = V c main_v35 := by
  obtain ⟨-, -, -, -, -, -, e0, e1, -⟩ := idx_facts t
  funext y
  show (V c main_v35 : S64x64.Idx → EReal) (((cfg2.win 3).blk t).view.emb y) = _
  refine congrArg _ (funext fun a => Fin.ext ?_)
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

theorem b1_blk (c : Dev nD) (t : Fin cfg2.N) : (iblk2 V c 4 t : S1x64.Idx → EReal) = V c main_v36 := by
  obtain ⟨-, -, -, -, -, -, -, -, e0, e1, -⟩ := idx_facts t
  funext y
  show (V c main_v36 : S1x64.Idx → EReal) (((cfg2.win 4).blk t).view.emb y) = _
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

theorem w2_blk (c : Dev nD) (t : Fin cfg2.N) : (iblk2 V c 5 t : S64x64.Idx → EReal) = V c main_arg13 := by
  obtain ⟨-, -, -, -, -, -, -, -, -, -, e0, e1, -⟩ := idx_facts t
  funext y
  show (V c main_arg13 : S64x64.Idx → EReal) (((cfg2.win 5).blk t).view.emb y) = _
  refine congrArg _ (funext fun a => Fin.ext ?_)
  match a with
  | ⟨0, _⟩ => show win2_5.index t (0 : Fin 2) * 64 + 1 * (y 0).val = (y 0).val; rw [e0]; omega
  | ⟨1, _⟩ => show win2_5.index t (1 : Fin 2) * 64 + 1 * (y 1).val = (y 1).val; rw [e1]; omega

theorem b2_blk (c : Dev nD) (t : Fin cfg2.N) : (iblk2 V c 6 t : S1x64.Idx → EReal) = V c main_v37 := by
  obtain ⟨-, -, -, -, -, -, -, -, -, -, -, -, e0, e1, -⟩ := idx_facts t
  funext y
  show (V c main_v37 : S1x64.Idx → EReal) (((cfg2.win 6).blk t).view.emb y) = _
  refine congrArg _ (funext fun a => Fin.ext ?_)
  match a with
  | ⟨0, _⟩ => show win2_6.index t (0 : Fin 2) * 1 + 1 * (y 0).val = (y 0).val; rw [e0]; omega
  | ⟨1, _⟩ => show win2_6.index t (1 : Fin 2) * 64 + 1 * (y 1).val = (y 1).val; rw [e1]; omega

/-! ## From the blocks to the array -/

/-- The updated nodes: the update applied to the whole arrays as the region finds them. -/
def updated (c : Dev nD) : S100000x64.Idx → EReal :=
  update (V c main_arg0 : S100000x64.Idx → EReal) (V c main_v33 : S100000x64.Idx → EReal)
    (V c main_v34 : S64x64.Idx → EReal) (V c main_v35 : S64x64.Idx → EReal) (rowOf (V c main_v36 : S1x64.Idx → EReal))
    (V c main_arg13 : S64x64.Idx → EReal) (rowOf (V c main_v37 : S1x64.Idx → EReal))

/-- What point `t` writes back is block `t` of the updated nodes. -/
theorem flushed_eq (c : Dev nD) (t : Fin cfg2.N) :
    (dat2 V c).flushed 7 t = ((cfg2.win 7).blk t).view.read (Elt Ideal) (updated V c) := by
  show (cfg2.win 7).cut (grid2.coords t) ((dat2 V c).after 7 t) = _
  rw [after2_7]
  unfold out2_7
  rw [View.canon_unit_zero hz]
  simp only [View.ld_unit_zero (S := S10000x64) hz, View.ld_unit_zero (S := S64x64) hz, View.ld_unit_zero (S := S1x64) hz]
  rw [pay_eq, wa_blk, wb_blk, b1_blk, w2_blk, b2_blk]
  obtain ⟨-, -, -, -, -, -, -, -, -, -, -, -, -, -, e0, e1⟩ := idx_facts t
  funext j
  obtain ⟨r, q, rfl⟩ : ∃ (r : Fin 10000) (q : Fin 64), j = ix2 r q := ⟨j 0, j 1, eq_ix2 j⟩
  have hN : cfg2.N = 10 := N_2
  have ht : t.val < 10 := hN ▸ t.isLt
  have hemb : ((cfg2.win 7).blk t).view.emb (ix2 r q) = (ix2 (⟨10000 * t.val + r.val, by have := r.isLt; omega⟩ : Fin 100000) q : S100000x64.Idx) := by
    funext a; apply Fin.ext
    match a with
    | ⟨0, _⟩ => show win2_7.index t (0 : Fin 2) * 10000 + 1 * r.val = 10000 * t.val + r.val; rw [e0]; omega
    | ⟨1, _⟩ => show win2_7.index t (1 : Fin 2) * 64 + 1 * q.val = q.val; rw [e1]; omega
  show update (iblk2 V c 0 t : S10000x64.Idx → EReal) (iblk2 V c 1 t : S10000x64.Idx → EReal) _ _ _ _ _ (ix2 r q) = updated V c (((cfg2.win 7).blk t).view.emb (ix2 r q))
  rw [hemb]
  unfold updated
  exact update_row _ _ _ _ _ _ _ _ _ r _ q (fun k => emb_blk V c t r k _ rfl) (fun k => agg_blk V c t r k _ rfl)

/-- An index of the result is in point `t`'s block iff its row is among that block's rows. -/
theorem mem_blk (t : Fin cfg2.N) (i : S100000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v38).slice (win2_7.rect t)).set ↔ _
  rw [View.set_slice_whole, Rect.mem_set_unit]
  exact Iff.rfl

/-- The result array after the region: the updated nodes. Row `p` is written by point `p / 10000`. -/
theorem final (c : Dev nD) : (dat2 V c).arrAt 7 cfg2.N = updated V c :=
  (dat2 V c).arrAt_eq_of_cover 7 (updated V c) (fun t _ => flushed_eq V c t) fun i => by
    have hN : cfg2.N = 10 := N_2
    have hi0 : (i 0).val < 100000 := (i 0).isLt
    have hi1 : (i 1).val < 64 := (i 1).isLt
    let t : Fin cfg2.N := ⟨(i 0).val / 10000, by rw [hN]; omega⟩
    obtain ⟨-, -, -, -, -, -, -, -, -, -, -, -, -, -, e0, e1⟩ := idx_facts t
    refine ⟨t, flush2_7 t, ?_⟩
    rw [mem_blk]
    intro a
    match a with
    | ⟨0, _⟩ => show win2_7.index t (0 : Fin 2) * 10000 ≤ (i 0).val ∧ (i 0).val < win2_7.index t (0 : Fin 2) * 10000 + 10000; rw [e0]; show (i 0).val / 10000 * 10000 ≤ (i 0).val ∧ (i 0).val < (i 0).val / 10000 * 10000 + 10000; omega
    | ⟨1, _⟩ => show win2_7.index t (1 : Fin 2) * 64 ≤ (i 1).val ∧ (i 1).val < win2_7.index t (1 : Fin 2) * 64 + 64; rw [e1]; omega

end Cert.KernelIdeal.Upd

end
-- ==== Proof.KernelValue.lean ====
/-
  The idealized kernel's result as one function of its arguments.

  The program gathers the rows of the node table each ground atom names, runs each relation's two-layer message
  network on them (two pipelined regions), sums the messages into their nodes (two scatter-adds, added), and runs the node
  update on the embeddings and the aggregate (the third region). Reading the buffer contents at each boundary back to the
  launch memory, through the host operations between the regions, names the result.
-/
import proofs.«111962_j21973052686562_2_alg».proof.Proof.RunValue
import proofs.«111962_j21973052686562_2_alg».proof.Proof.Msg1
import proofs.«111962_j21973052686562_2_alg».proof.Proof.Msg2
import proofs.«111962_j21973052686562_2_alg».proof.Proof.Upd
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.Layers Cert.KernelIdeal.Upd

/-! ## The program's stages as functions of the arguments -/

/-- The rows of the node table the unary relation's atoms name. -/
def rows1K (a0 : FVec Ideal S100000x64 .f32) (a1 : IVec S500000x1 32) : S500000x64.Idx → EReal :=
  Host.gather gather_S100000x64_S500000x1_S500000x64_1_0_n_n_0_1_164 (truncf .bf16 a0 bitsLt_bf16_f32)
    (broadcastInDim S500000x1 ![0] bcast_S500000_S500000x1_0
      (select (cmpi .slt (shapeCast S500000 a1 shapeCasts_S500000x1_S500000) (broadcastInDim S500000 ![] bcast_S_S500000 (constantI S_ 32 0#32)))
        (addi (shapeCast S500000 a1 shapeCasts_S500000x1_S500000) (broadcastInDim S500000 ![] bcast_S_S500000 (constantI S_ 32 100000#32)))
        (shapeCast S500000 a1 shapeCasts_S500000x1_S500000)))

/-- The rows of the node table the binary relation's atoms name, both argument slots side by side. -/
def rows2K (a0 : FVec Ideal S100000x64 .f32) (a2 : IVec S1000000x2 32) : S1000000x128.Idx → EReal :=
  shapeCast S1000000x128
    (Host.gather gather_S100000x64_S1000000x2x1_S1000000x2x64_2_0_n_n_0_2_164 (truncf .bf16 a0 bitsLt_bf16_f32)
      (broadcastInDim S1000000x2x1 ![0, 1] bcast_S1000000x2_S1000000x2x1_0_1
        (select (cmpi .slt a2 (broadcastInDim S1000000x2 ![] bcast_S_S1000000x2 (constantI S_ 32 0#32)))
          (addi a2 (broadcastInDim S1000000x2 ![] bcast_S_S1000000x2 (constantI S_ 32 100000#32))) a2)))
    shapeCasts_S1000000x2x64_S1000000x128

/-- The unary relation's messages. -/
def msgs1K (a0 : FVec Ideal S100000x64 .f32) (a1 : IVec S500000x1 32) (a3 : FVec Ideal S64x64 .f32) (a4 : FVec Ideal S64 .f32)
    (a5 : FVec Ideal S64x64 .f32) (a6 : FVec Ideal S64 .f32) : S500000x64.Idx → EReal :=
  dense (relu (dense (rows1K a0 a1) a3 (rowOf (shapeCast S1x64 a4 shapeCasts_S64_S1x64)))) a5 (rowOf (shapeCast S1x64 a6 shapeCasts_S64_S1x64))

/-- The binary relation's messages. -/
def msgs2K (a0 : FVec Ideal S100000x64 .f32) (a2 : IVec S1000000x2 32) (a7 : FVec Ideal S128x128 .f32) (a8 : FVec Ideal S128 .f32)
    (a9 : FVec Ideal S128x128 .f32) (a10 : FVec Ideal S128 .f32) : S1000000x128.Idx → EReal :=
  dense (relu (dense (rows2K a0 a2) a7 (rowOf (shapeCast S1x128 a8 shapeCasts_S128_S1x128)))) a9 (rowOf (shapeCast S1x128 a10 shapeCasts_S128_S1x128))

/-- Two scatter-adds of messages into a zero array by flat lists of node indices, added. -/
def aggOf (i1 : IVec S500000 32) (i2 : IVec S2000000 32) (M1 : FVec Ideal S500000x64 .bf16) (M2 : FVec Ideal S1000000x128 .bf16) :
    S100000x64.Idx → EReal :=
  addf (F := Ideal)
    (Host.scatterAdd scatter_S100000x64_S500000x1_S500000x64_1_0_0_1
      (broadcastInDim S100000x64 ![] bcast_S_S100000x64 (constant S_ .f32 0x00000000#32))
      (broadcastInDim S500000x1 ![0] bcast_S500000_S500000x1_0 i1)
      (extf .f32 M1 bitsLt_bf16_f32))
    (Host.scatterAdd scatter_S100000x64_S2000000x1_S2000000x64_1_0_0_1
      (broadcastInDim S100000x64 ![] bcast_S_S100000x64 (constant S_ .f32 0x00000000#32))
      (broadcastInDim S2000000x1 ![0] bcast_S2000000_S2000000x1_0 i2)
      (extf .f32 (shapeCast S2000000x64 M2 shapeCasts_S1000000x128_S2000000x64) bitsLt_bf16_f32))

/-- The messages summed into the nodes their atoms name: one scatter-add per relation, added. -/
def aggK (a1 : IVec S500000x1 32) (a2 : IVec S1000000x2 32) (M1 : S500000x64.Idx → EReal) (M2 : S1000000x128.Idx → EReal) :
    S100000x64.Idx → EReal :=
  addf (F := Ideal)
    (Host.scatterAdd scatter_S100000x64_S500000x1_S500000x64_1_0_0_1
      (broadcastInDim S100000x64 ![] bcast_S_S100000x64 (constant S_ .f32 0x00000000#32))
      (broadcastInDim S500000x1 ![0] bcast_S500000_S500000x1_0 (shapeCast S500000 a1 shapeCasts_S500000x1_S500000))
      (extf .f32 (M1 : FVec Ideal S500000x64 .bf16) bitsLt_bf16_f32))
    (Host.scatterAdd scatter_S100000x64_S2000000x1_S2000000x64_1_0_0_1
      (broadcastInDim S100000x64 ![] bcast_S_S100000x64 (constant S_ .f32 0x00000000#32))
      (broadcastInDim S2000000x1 ![0] bcast_S2000000_S2000000x1_0 (shapeCast S2000000 a2 shapeCasts_S1000000x2_S2000000))
      (extf .f32 (shapeCast S2000000x64 (M2 : FVec Ideal S1000000x128 .bf16) shapeCasts_S1000000x128_S2000000x64) bitsLt_bf16_f32))

/-- The whole network. -/
def netK (a0 : FVec Ideal S100000x64 .f32) (a1 : IVec S500000x1 32) (a2 : IVec S1000000x2 32)
    (a3 : FVec Ideal S64x64 .f32) (a4 : FVec Ideal S64 .f32) (a5 : FVec Ideal S64x64 .f32) (a6 : FVec Ideal S64 .f32)
    (a7 : FVec Ideal S128x128 .f32) (a8 : FVec Ideal S128 .f32) (a9 : FVec Ideal S128x128 .f32) (a10 : FVec Ideal S128 .f32)
    (a11 : FVec Ideal S128x64 .f32) (a12 : FVec Ideal S64 .f32) (a13 : FVec Ideal S64x64 .f32) (a14 : FVec Ideal S64 .f32) :
    S100000x64.Idx → EReal :=
  update a0 (aggK a1 a2 (msgs1K a0 a1 a3 a4 a5 a6) (msgs2K a0 a2 a7 a8 a9 a10))
    (extractStridedSlice S64x64 ![0, 0] a11 slices_S128x64_S64x64_0_0) (extractStridedSlice S64x64 ![64, 0] a11 slices_S128x64_S64x64_64_0)
    (rowOf (shapeCast S1x64 a12 shapeCasts_S64_S1x64)) a13 (rowOf (shapeCast S1x64 a14 shapeCasts_S64_S1x64))

variable (m : (ℓ : Loc nD τ sig) → Buf (Elt Ideal) ℓ) (ρ : Dev nD → PrngReg)

/-! ## The first region's entry and exit -/

theorem W1_v8 (c : Dev nD) : (W1 m ρ c (Proc.devRef .tc main_v8) : S500000x64.Idx → EReal) = rows1K (m ((c.tc : Thread nD τ).loc main_arg0)) (m ((c.tc : Thread nD τ).loc main_arg1)) := by
  dsimp only [W1, hostOps0]; after_results; rfl
theorem W1_arg3 (c : Dev nD) : W1 m ρ c (Proc.devRef .tc main_arg3) = (m ((c.tc : Thread nD τ).loc main_arg3)) := by
  dsimp only [W1, hostOps0]; after_results
theorem W1_v9 (c : Dev nD) : (W1 m ρ c (Proc.devRef .tc main_v9) : S1x64.Idx → EReal) = shapeCast S1x64 (m ((c.tc : Thread nD τ).loc main_arg4)) shapeCasts_S64_S1x64 := by
  dsimp only [W1, hostOps0]; after_results; rfl
theorem W1_arg5 (c : Dev nD) : W1 m ρ c (Proc.devRef .tc main_arg5) = (m ((c.tc : Thread nD τ).loc main_arg5)) := by
  dsimp only [W1, hostOps0]; after_results
theorem W1_v10 (c : Dev nD) : (W1 m ρ c (Proc.devRef .tc main_v10) : S1x64.Idx → EReal) = shapeCast S1x64 (m ((c.tc : Thread nD τ).loc main_arg6)) shapeCasts_S64_S1x64 := by
  dsimp only [W1, hostOps0]; after_results; rfl

/-- The first region leaves the unary relation's messages of the arguments. -/
theorem W2_v11 (c : Dev nD) : (W2 m ρ c (Proc.devRef .tc main_v11) : S500000x64.Idx → EReal)
    = msgs1K (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine ((W2_arr m ρ c 5).trans (Msg1.final (V1 m ρ) c)).trans ?_
  unfold Msg1.messages msgs1K
  rw [show (V1 m ρ c main_v8 : S500000x64.Idx → EReal) = _ from W1_v8 m ρ c, show V1 m ρ c main_arg3 = _ from W1_arg3 m ρ c,
    show (V1 m ρ c main_v9 : S1x64.Idx → EReal) = _ from W1_v9 m ρ c, show V1 m ρ c main_arg5 = _ from W1_arg5 m ρ c,
    show (V1 m ρ c main_v10 : S1x64.Idx → EReal) = _ from W1_v10 m ρ c]

/-! ## Buffers no region and no host operation has written yet -/

theorem W2_arg0 (c : Dev nD) : W2 m ρ c (Proc.devRef .tc main_arg0) = (m ((c.tc : Thread nD τ).loc main_arg0)) :=
  (W2_of_ne m ρ c main_arg0 (by decide)).trans (by dsimp only [W1, hostOps0]; after_results)
theorem W2_arg2 (c : Dev nD) : W2 m ρ c (Proc.devRef .tc main_arg2) = (m ((c.tc : Thread nD τ).loc main_arg2)) :=
  (W2_of_ne m ρ c main_arg2 (by decide)).trans (by dsimp only [W1, hostOps0]; after_results)
theorem W2_arg7 (c : Dev nD) : W2 m ρ c (Proc.devRef .tc main_arg7) = (m ((c.tc : Thread nD τ).loc main_arg7)) :=
  (W2_of_ne m ρ c main_arg7 (by decide)).trans (by dsimp only [W1, hostOps0]; after_results)
theorem W2_arg8 (c : Dev nD) : W2 m ρ c (Proc.devRef .tc main_arg8) = (m ((c.tc : Thread nD τ).loc main_arg8)) :=
  (W2_of_ne m ρ c main_arg8 (by decide)).trans (by dsimp only [W1, hostOps0]; after_results)
theorem W2_arg9 (c : Dev nD) : W2 m ρ c (Proc.devRef .tc main_arg9) = (m ((c.tc : Thread nD τ).loc main_arg9)) :=
  (W2_of_ne m ρ c main_arg9 (by decide)).trans (by dsimp only [W1, hostOps0]; after_results)
theorem W2_arg10 (c : Dev nD) : W2 m ρ c (Proc.devRef .tc main_arg10) = (m ((c.tc : Thread nD τ).loc main_arg10)) :=
  (W2_of_ne m ρ c main_arg10 (by decide)).trans (by dsimp only [W1, hostOps0]; after_results)
theorem W2_arg11 (c : Dev nD) : W2 m ρ c (Proc.devRef .tc main_arg11) = (m ((c.tc : Thread nD τ).loc main_arg11)) :=
  (W2_of_ne m ρ c main_arg11 (by decide)).trans (by dsimp only [W1, hostOps0]; after_results)
theorem W2_arg12 (c : Dev nD) : W2 m ρ c (Proc.devRef .tc main_arg12) = (m ((c.tc : Thread nD τ).loc main_arg12)) :=
  (W2_of_ne m ρ c main_arg12 (by decide)).trans (by dsimp only [W1, hostOps0]; after_results)
theorem W2_arg13 (c : Dev nD) : W2 m ρ c (Proc.devRef .tc main_arg13) = (m ((c.tc : Thread nD τ).loc main_arg13)) :=
  (W2_of_ne m ρ c main_arg13 (by decide)).trans (by dsimp only [W1, hostOps0]; after_results)
theorem W2_arg14 (c : Dev nD) : W2 m ρ c (Proc.devRef .tc main_arg14) = (m ((c.tc : Thread nD τ).loc main_arg14)) :=
  (W2_of_ne m ρ c main_arg14 (by decide)).trans (by dsimp only [W1, hostOps0]; after_results)

theorem W2_v0 (c : Dev nD) : (W2 m ρ c (Proc.devRef .tc main_v0) : S100000x64.Idx → EReal) = truncf (F := Ideal) .bf16 (m ((c.tc : Thread nD τ).loc main_arg0)) bitsLt_bf16_f32 :=
  (W2_of_ne m ρ c main_v0 (by decide)).trans (by dsimp only [W1, hostOps0]; after_results)
theorem W2_v1 (c : Dev nD) : (W2 m ρ c (Proc.devRef .tc main_v1) : S500000.Idx → BitVec 32) = shapeCast S500000 (m ((c.tc : Thread nD τ).loc main_arg1)) shapeCasts_S500000x1_S500000 :=
  (W2_of_ne m ρ c main_v1 (by decide)).trans (by dsimp only [W1, hostOps0]; after_results; rfl)

/-! ## The second region's entry and exit -/

theorem W3_v20 (c : Dev nD) : (W3 m ρ c (Proc.devRef .tc main_v20) : S1000000x128.Idx → EReal) = rows2K (m ((c.tc : Thread nD τ).loc main_arg0)) (m ((c.tc : Thread nD τ).loc main_arg2)) := by
  dsimp only [W3, hostOps1]; after_results
  rw [W2_v0, W2_arg2]
  rfl
theorem W3_arg7 (c : Dev nD) : W3 m ρ c (Proc.devRef .tc main_arg7) = (m ((c.tc : Thread nD τ).loc main_arg7)) := by
  dsimp only [W3, hostOps1]; after_results; exact W2_arg7 m ρ c
theorem W3_v21 (c : Dev nD) : (W3 m ρ c (Proc.devRef .tc main_v21) : S1x128.Idx → EReal) = shapeCast S1x128 (m ((c.tc : Thread nD τ).loc main_arg8)) shapeCasts_S128_S1x128 := by
  dsimp only [W3, hostOps1]; after_results
  rw [W2_arg8]
  rfl
theorem W3_arg9 (c : Dev nD) : W3 m ρ c (Proc.devRef .tc main_arg9) = (m ((c.tc : Thread nD τ).loc main_arg9)) := by
  dsimp only [W3, hostOps1]; after_results; exact W2_arg9 m ρ c
theorem W3_v22 (c : Dev nD) : (W3 m ρ c (Proc.devRef .tc main_v22) : S1x128.Idx → EReal) = shapeCast S1x128 (m ((c.tc : Thread nD τ).loc main_arg10)) shapeCasts_S128_S1x128 := by
  dsimp only [W3, hostOps1]; after_results
  rw [W2_arg10]
  rfl

/-- The second region leaves the binary relation's messages of the arguments. -/
theorem W4_v23 (c : Dev nD) : (W4 m ρ c (Proc.devRef .tc main_v23) : S1000000x128.Idx → EReal)
    = msgs2K (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by
  refine ((W4_arr m ρ c 5).trans (Msg2.final (V3 m ρ) c)).trans ?_
  unfold Msg2.messages msgs2K
  rw [show (V3 m ρ c main_v20 : S1000000x128.Idx → EReal) = _ from W3_v20 m ρ c, show V3 m ρ c main_arg7 = _ from W3_arg7 m ρ c,
    show (V3 m ρ c main_v21 : S1x128.Idx → EReal) = _ from W3_v21 m ρ c, show V3 m ρ c main_arg9 = _ from W3_arg9 m ρ c,
    show (V3 m ρ c main_v22 : S1x128.Idx → EReal) = _ from W3_v22 m ρ c]

/-! ## What the second region leaves untouched -/

theorem W4_arg0 (c : Dev nD) : W4 m ρ c (Proc.devRef .tc main_arg0) = (m ((c.tc : Thread nD τ).loc main_arg0)) :=
  (W4_of_ne m ρ c main_arg0 (by decide)).trans ((show W3 m ρ c (Proc.devRef .tc main_arg0) = W2 m ρ c (Proc.devRef .tc main_arg0) from by
    dsimp only [W3, hostOps1]; after_results).trans (W2_arg0 m ρ c))
theorem W4_arg11 (c : Dev nD) : W4 m ρ c (Proc.devRef .tc main_arg11) = (m ((c.tc : Thread nD τ).loc main_arg11)) :=
  (W4_of_ne m ρ c main_arg11 (by decide)).trans ((show W3 m ρ c (Proc.devRef .tc main_arg11) = W2 m ρ c (Proc.devRef .tc main_arg11) from by
    dsimp only [W3, hostOps1]; after_results).trans (W2_arg11 m ρ c))
theorem W4_arg12 (c : Dev nD) : W4 m ρ c (Proc.devRef .tc main_arg12) = (m ((c.tc : Thread nD τ).loc main_arg12)) :=
  (W4_of_ne m ρ c main_arg12 (by decide)).trans ((show W3 m ρ c (Proc.devRef .tc main_arg12) = W2 m ρ c (Proc.devRef .tc main_arg12) from by
    dsimp only [W3, hostOps1]; after_results).trans (W2_arg12 m ρ c))
theorem W4_arg13 (c : Dev nD) : W4 m ρ c (Proc.devRef .tc main_arg13) = (m ((c.tc : Thread nD τ).loc main_arg13)) :=
  (W4_of_ne m ρ c main_arg13 (by decide)).trans ((show W3 m ρ c (Proc.devRef .tc main_arg13) = W2 m ρ c (Proc.devRef .tc main_arg13) from by
    dsimp only [W3, hostOps1]; after_results).trans (W2_arg13 m ρ c))
theorem W4_arg14 (c : Dev nD) : W4 m ρ c (Proc.devRef .tc main_arg14) = (m ((c.tc : Thread nD τ).loc main_arg14)) :=
  (W4_of_ne m ρ c main_arg14 (by decide)).trans ((show W3 m ρ c (Proc.devRef .tc main_arg14) = W2 m ρ c (Proc.devRef .tc main_arg14) from by
    dsimp only [W3, hostOps1]; after_results).trans (W2_arg14 m ρ c))

theorem W4_v1 (c : Dev nD) : (W4 m ρ c (Proc.devRef .tc main_v1) : S500000.Idx → BitVec 32) = shapeCast S500000 (m ((c.tc : Thread nD τ).loc main_arg1)) shapeCasts_S500000x1_S500000 :=
  (W4_of_ne m ρ c main_v1 (by decide)).trans ((show W3 m ρ c (Proc.devRef .tc main_v1) = W2 m ρ c (Proc.devRef .tc main_v1) from by
    dsimp only [W3, hostOps1]; after_results).trans (W2_v1 m ρ c))
theorem W4_v11 (c : Dev nD) : (W4 m ρ c (Proc.devRef .tc main_v11) : S500000x64.Idx → EReal)
    = msgs1K (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (W4_of_ne m ρ c main_v11 (by decide)).trans ((show W3 m ρ c (Proc.devRef .tc main_v11) = W2 m ρ c (Proc.devRef .tc main_v11) from by
    dsimp only [W3, hostOps1]; after_results).trans (W2_v11 m ρ c))
theorem W4_v12 (c : Dev nD) : (W4 m ρ c (Proc.devRef .tc main_v12) : S2000000.Idx → BitVec 32) = shapeCast S2000000 (m ((c.tc : Thread nD τ).loc main_arg2)) shapeCasts_S1000000x2_S2000000 :=
  (W4_of_ne m ρ c main_v12 (by decide)).trans (by
    dsimp only [W3, hostOps1]; after_results
    rw [W2_arg2]
    rfl)

/-! ## The third region's entry and exit -/

theorem W5_arg0 (c : Dev nD) : W5 m ρ c (Proc.devRef .tc main_arg0) = (m ((c.tc : Thread nD τ).loc main_arg0)) := by
  dsimp only [W5, hostOps2]; after_results; exact W4_arg0 m ρ c
theorem W5_arg13 (c : Dev nD) : W5 m ρ c (Proc.devRef .tc main_arg13) = (m ((c.tc : Thread nD τ).loc main_arg13)) := by
  dsimp only [W5, hostOps2]; after_results; exact W4_arg13 m ρ c
set_option maxHeartbeats 1000000 in
theorem W5_v33 (c : Dev nD) : (W5 m ρ c (Proc.devRef .tc main_v33) : S100000x64.Idx → EReal)
    = aggK (m ((c.tc : Thread nD τ).loc main_arg1)) (m ((c.tc : Thread nD τ).loc main_arg2)) (msgs1K (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
        (msgs2K (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10))) := by
  have key : (W5 m ρ c (Proc.devRef .tc main_v33) : S100000x64.Idx → EReal)
      = aggOf (W4 m ρ c (Proc.devRef .tc main_v1)) (W4 m ρ c (Proc.devRef .tc main_v12)) (W4 m ρ c (Proc.devRef .tc main_v11)) (W4 m ρ c (Proc.devRef .tc main_v23)) := by
    dsimp only [W5, hostOps2]; after_results; rfl
  rw [key, W4_v1, W4_v11, W4_v12, W4_v23]
  rfl
theorem W5_v34 (c : Dev nD) : (W5 m ρ c (Proc.devRef .tc main_v34) : S64x64.Idx → EReal)
    = extractStridedSlice S64x64 ![0, 0] (m ((c.tc : Thread nD τ).loc main_arg11)) slices_S128x64_S64x64_0_0 := by
  dsimp only [W5, hostOps2]; after_results
  rw [W4_arg11]
theorem W5_v35 (c : Dev nD) : (W5 m ρ c (Proc.devRef .tc main_v35) : S64x64.Idx → EReal)
    = extractStridedSlice S64x64 ![64, 0] (m ((c.tc : Thread nD τ).loc main_arg11)) slices_S128x64_S64x64_64_0 := by
  dsimp only [W5, hostOps2]; after_results
  rw [W4_arg11]
theorem W5_v36 (c : Dev nD) : (W5 m ρ c (Proc.devRef .tc main_v36) : S1x64.Idx → EReal) = shapeCast S1x64 (m ((c.tc : Thread nD τ).loc main_arg12)) shapeCasts_S64_S1x64 := by
  dsimp only [W5, hostOps2]; after_results
  rw [W4_arg12]
  rfl
theorem W5_v37 (c : Dev nD) : (W5 m ρ c (Proc.devRef .tc main_v37) : S1x64.Idx → EReal) = shapeCast S1x64 (m ((c.tc : Thread nD τ).loc main_arg14)) shapeCasts_S64_S1x64 := by
  dsimp only [W5, hostOps2]; after_results
  rw [W4_arg14]
  rfl

/-- THE RESULT: the last boundary's contents at the result buffer are the network of the arguments. -/
theorem result_eq (c : Dev nD) : (W6 m ρ c (Proc.devRef .tc main_v38) : S100000x64.Idx → EReal)
    = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine ((W6_arr m ρ c 7).trans (Upd.final (V5 m ρ) c)).trans ?_
  unfold Upd.updated netK
  rw [show V5 m ρ c main_arg0 = _ from W5_arg0 m ρ c, show (V5 m ρ c main_v33 : S100000x64.Idx → EReal) = _ from W5_v33 m ρ c,
    show (V5 m ρ c main_v34 : S64x64.Idx → EReal) = _ from W5_v34 m ρ c, show (V5 m ρ c main_v35 : S64x64.Idx → EReal) = _ from W5_v35 m ρ c,
    show (V5 m ρ c main_v36 : S1x64.Idx → EReal) = _ from W5_v36 m ρ c, show V5 m ρ c main_arg13 = _ from W5_arg13 m ρ c,
    show (V5 m ρ c main_v37 : S1x64.Idx → EReal) = _ from W5_v37 m ρ c]

/-- The run with the result named by the network. -/
theorem run : θ_run defs (onTc (τ := τ) (main (F := Ideal))) ⟨m, fun _ => 0, ρ⟩ (fun r => ∀ c : Dev nD,
      r.2.mem ((c.tc : Thread nD τ).loc main_v38) = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_eq m ρ c), (h c).2⟩) (run_result m ρ)

end Cert.KernelIdeal.Whole

end
-- ==== Proof.RefValue.lean ====
/-
  The idealized reference's result as the same layers.

  The reference gathers the rows each ground atom names, runs each relation's two dense layers with a relu between
  (a `dot_general` plus a bias broadcast down the rows, twice), sums the messages into their nodes, joins the embeddings
  and the aggregate side by side, and runs the two update layers. Each host spelling of a layer is the layer.
-/
import proofs.«111962_j21973052686562_2_alg».proof.Proof.Gen.ReferenceIdeal.Read
import proofs.«111962_j21973052686562_2_alg».proof.Proof.LibLayers

set_option maxRecDepth 16384

noncomputable section

namespace Cert.ReferenceIdeal.Net

open Idealize.ShloMosaic Idealize.ShloMosaic.TcCoe Idealize.ShloMosaic.ValueIdx Idealize.SL.Sem
open Cert.ReferenceIdeal Cert.ReferenceIdeal.Gen Cert.ReferenceIdeal.Read Cert.Layers

/-- The rows of the node table the unary relation's atoms name. -/
def rows1R (a0 : FVec Ideal S100000x64 .f32) (a1 : IVec S500000x1 32) : S500000x64.Idx → EReal :=
  shapeCast S500000x64
    (Host.gather gather_S100000x64_S500000x1x1_S500000x1x64_2_0_n_n_0_2_164 a0
      (broadcastInDim S500000x1x1 ![0, 1] bcast_S500000x1_S500000x1x1_0_1
        (select (cmpi .slt a1 (broadcastInDim S500000x1 ![] bcast_S_S500000x1 (constantI S_ 32 0#32)))
          (addi a1 (broadcastInDim S500000x1 ![] bcast_S_S500000x1 (constantI S_ 32 100000#32))) a1)))
    shapeCasts_S500000x1x64_S500000x64

/-- The rows of the node table the binary relation's atoms name, both argument slots side by side. -/
def rows2R (a0 : FVec Ideal S100000x64 .f32) (a2 : IVec S1000000x2 32) : S1000000x128.Idx → EReal :=
  shapeCast S1000000x128
    (Host.gather gather_S100000x64_S1000000x2x1_S1000000x2x64_2_0_n_n_0_2_164 a0
      (broadcastInDim S1000000x2x1 ![0, 1] bcast_S1000000x2_S1000000x2x1_0_1
        (select (cmpi .slt a2 (broadcastInDim S1000000x2 ![] bcast_S_S1000000x2 (constantI S_ 32 0#32)))
          (addi a2 (broadcastInDim S1000000x2 ![] bcast_S_S1000000x2 (constantI S_ 32 100000#32))) a2)))
    shapeCasts_S1000000x2x64_S1000000x128

/-- The unary relation's messages. -/
def msgs1R (a0 : FVec Ideal S100000x64 .f32) (a1 : IVec S500000x1 32) (a3 : FVec Ideal S64x64 .f32) (a4 : FVec Ideal S64 .f32)
    (a5 : FVec Ideal S64x64 .f32) (a6 : FVec Ideal S64 .f32) : S500000x64.Idx → EReal :=
  dense (relu (dense (rows1R a0 a1) a3 a4)) a5 a6

/-- The binary relation's messages. -/
def msgs2R (a0 : FVec Ideal S100000x64 .f32) (a2 : IVec S1000000x2 32) (a7 : FVec Ideal S128x128 .f32) (a8 : FVec Ideal S128 .f32)
    (a9 : FVec Ideal S128x128 .f32) (a10 : FVec Ideal S128 .f32) : S1000000x128.Idx → EReal :=
  dense (relu (dense (rows2R a0 a2) a7 a8)) a9 a10

/-- The messages summed into the nodes their atoms name: one scatter-add per relation, added. -/
def aggR (a1 : IVec S500000x1 32) (a2 : IVec S1000000x2 32) (M1 : S500000x64.Idx → EReal) (M2 : S1000000x128.Idx → EReal) :
    S100000x64.Idx → EReal :=
  addf (F := Ideal)
    (Host.scatterAdd scatter_S100000x64_S500000x1_S500000x64_1_0_0_1
      (broadcastInDim S100000x64 ![] bcast_S_S100000x64 (constant S_ .f32 0x00000000#32))
      (broadcastInDim S500000x1 ![0] bcast_S500000_S500000x1_0 (shapeCast S500000 a1 shapeCasts_S500000x1_S500000))
      (M1 : FVec Ideal S500000x64 .f32))
    (Host.scatterAdd scatter_S100000x64_S2000000x1_S2000000x64_1_0_0_1
      (broadcastInDim S100000x64 ![] bcast_S_S100000x64 (constant S_ .f32 0x00000000#32))
      (broadcastInDim S2000000x1 ![0] bcast_S2000000_S2000000x1_0 (shapeCast S2000000 a2 shapeCasts_S1000000x2_S2000000))
      (shapeCast S2000000x64 (M2 : FVec Ideal S1000000x128 .f32) shapeCasts_S1000000x128_S2000000x64))

/-- The whole network: the update layers on the embeddings and the aggregate joined side by side. -/
def netR (a0 : FVec Ideal S100000x64 .f32) (a1 : IVec S500000x1 32) (a2 : IVec S1000000x2 32)
    (a3 : FVec Ideal S64x64 .f32) (a4 : FVec Ideal S64 .f32) (a5 : FVec Ideal S64x64 .f32) (a6 : FVec Ideal S64 .f32)
    (a7 : FVec Ideal S128x128 .f32) (a8 : FVec Ideal S128 .f32) (a9 : FVec Ideal S128x128 .f32) (a10 : FVec Ideal S128 .f32)
    (a11 : FVec Ideal S128x64 .f32) (a12 : FVec Ideal S64 .f32) (a13 : FVec Ideal S64x64 .f32) (a14 : FVec Ideal S64 .f32) :
    S100000x64.Idx → EReal :=
  dense (relu (dense
      (concatenate S100000x128 1 [⟨S100000x64, a0⟩, ⟨S100000x64, aggR a1 a2 (msgs1R a0 a1 a3 a4 a5 a6) (msgs2R a0 a2 a7 a8 a9 a10)⟩]
        concatenates_S100000x64_S100000x64_S100000x128_d1 : S100000x128.Idx → EReal) a11 a12)) a13 a14

/-- The reference's composed term of host operations is the network. -/
theorem hostTerm_eq (a0 : FVec Ideal S100000x64 .f32) (a1 : IVec S500000x1 32) (a2 : IVec S1000000x2 32)
    (a3 : FVec Ideal S64x64 .f32) (a4 : FVec Ideal S64 .f32) (a5 : FVec Ideal S64x64 .f32) (a6 : FVec Ideal S64 .f32)
    (a7 : FVec Ideal S128x128 .f32) (a8 : FVec Ideal S128 .f32) (a9 : FVec Ideal S128x128 .f32) (a10 : FVec Ideal S128 .f32)
    (a11 : FVec Ideal S128x64 .f32) (a12 : FVec Ideal S64 .f32) (a13 : FVec Ideal S64x64 .f32) (a14 : FVec Ideal S64 .f32) :
    (addf (Host.dotGeneral dot_S100000x64_S64x64_S100000x64_1_0_0_1_n_n none (maximumf (addf (Host.dotGeneral dot_S100000x128_S128x64_S100000x64_1_0_0_1_n_n none (concatenate S100000x128 1 [⟨S100000x64, a0⟩, ⟨S100000x64, (addf (Host.scatterAdd scatter_S100000x64_S500000x1_S500000x64_1_0_0_1 (broadcastInDim S100000x64 ![] bcast_S_S100000x64 (constant S_ .f32 0x00000000#32)) (broadcastInDim S500000x1 ![0] bcast_S500000_S500000x1_0 (shapeCast _ a1 shapeCasts_S500000x1_S500000)) (addf (Host.dotGeneral dot_S500000x64_S64x64_S500000x64_1_0_0_1_n_n none (maximumf (addf (Host.dotGeneral dot_S500000x64_S64x64_S500000x64_1_0_0_1_n_n none (shapeCast _ (Host.gather gather_S100000x64_S500000x1x1_S500000x1x64_2_0_n_n_0_2_164 a0 (broadcastInDim S500000x1x1 ![0, 1] bcast_S500000x1_S500000x1x1_0_1 (select (cmpi .slt a1 (broadcastInDim S500000x1 ![] bcast_S_S500000x1 (constantI S_ 32 0#32))) (addi a1 (broadcastInDim S500000x1 ![] bcast_S_S500000x1 (constantI S_ 32 100000#32))) a1))) shapeCasts_S500000x1x64_S500000x64) a3) (broadcastInDim S500000x64 ![0, 1] bcast_S1x64_S500000x64_0_1 (broadcastInDim S1x64 ![1] bcast_S64_S1x64_1 a4))) (broadcastInDim S500000x64 ![] bcast_S_S500000x64 (constant S_ .f32 0x00000000#32))) a5) (broadcastInDim S500000x64 ![0, 1] bcast_S1x64_S500000x64_0_1 (broadcastInDim S1x64 ![1] bcast_S64_S1x64_1 a6)))) (Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 (shapeCast _ a2 shapeCasts_S1000000x2_S2000000)) (shapeCast _ (addf (Host.dotGeneral dot_S1000000x128_S128x128_S1000000x128_1_0_0_1_n_n none (maximumf (addf (Host.dotGeneral dot_S1000000x128_S128x128_S1000000x128_1_0_0_1_n_n none (shapeCast _ (Host.gather gather_S100000x64_S1000000x2x1_S1000000x2x64_2_0_n_n_0_2_164 a0 (broadcastInDim S1000000x2x1 ![0, 1] bcast_S1000000x2_S1000000x2x1_0_1 (select (cmpi .slt a2 (broadcastInDim S1000000x2 ![] bcast_S_S1000000x2 (constantI S_ 32 0#32))) (addi a2 (broadcastInDim S1000000x2 ![] bcast_S_S1000000x2 (constantI S_ 32 100000#32))) a2))) shapeCasts_S1000000x2x64_S1000000x128) a7) (broadcastInDim S1000000x128 ![0, 1] bcast_S1x128_S1000000x128_0_1 (broadcastInDim S1x128 ![1] bcast_S128_S1x128_1 a8))) (broadcastInDim S1000000x128 ![] bcast_S_S1000000x128 (constant S_ .f32 0x00000000#32))) a9) (broadcastInDim S1000000x128 ![0, 1] bcast_S1x128_S1000000x128_0_1 (broadcastInDim S1x128 ![1] bcast_S128_S1x128_1 a10))) shapeCasts_S1000000x128_S2000000x64)))⟩] concatenates_S100000x64_S100000x64_S100000x128_d1) a11) (broadcastInDim S100000x64 ![0, 1] bcast_S1x64_S100000x64_0_1 (broadcastInDim S1x64 ![1] bcast_S64_S1x64_1 a12))) (broadcastInDim S100000x64 ![] bcast_S_S100000x64 (constant S_ .f32 0x00000000#32))) a13) (broadcastInDim S100000x64 ![0, 1] bcast_S1x64_S100000x64_0_1 (broadcastInDim S1x64 ![1] bcast_S64_S1x64_1 a14)) : S100000x64.Idx → EReal)
      = netR a0 a1 a2 a3 a4 a5 a6 a7 a8 a9 a10 a11 a12 a13 a14 := by
  rw [host_dot dot_S100000x64_S64x64_S100000x64_1_0_0_1_n_n rfl rfl lhs_main_v50_0 lhs_main_v50_1 rhs_main_v50_0 rhs_main_v50_1, host_dot dot_S100000x128_S128x64_S100000x64_1_0_0_1_n_n rfl rfl lhs_main_v45_0 lhs_main_v45_1 rhs_main_v45_0 rhs_main_v45_1,
    host_dot dot_S500000x64_S64x64_S500000x64_1_0_0_1_n_n rfl rfl lhs_main_v13_0 lhs_main_v13_1 rhs_main_v13_0 rhs_main_v13_1, host_dot dot_S500000x64_S64x64_S500000x64_1_0_0_1_n_n rfl rfl lhs_main_v8_0 lhs_main_v8_1 rhs_main_v8_0 rhs_main_v8_1,
    host_dot dot_S1000000x128_S128x128_S1000000x128_1_0_0_1_n_n rfl rfl lhs_main_v31_0 lhs_main_v31_1 rhs_main_v31_0 rhs_main_v31_1, host_dot dot_S1000000x128_S128x128_S1000000x128_1_0_0_1_n_n rfl rfl lhs_main_v26_0 lhs_main_v26_1 rhs_main_v26_0 rhs_main_v26_1]
  rw [host_addRow, host_addRow, host_addRow, host_addRow, host_addRow, host_addRow]
  rw [host_relu, host_relu, host_relu]
  rfl

end Cert.ReferenceIdeal.Net

end
-- ==== Proof.Gathers.lean ====
/-
  The rows the two programs gather from the node table.

  Both programs read, for every ground atom and argument slot, one row of the node table: the row whose number is the
  atom's node index with a negative index counted from the end of the table, read as a signed integer and
  clamped into the table. For the unary relation the kernel's program gathers with the indices as a flat list and gets
  the `[500000, 64]` array directly, while the reference gathers with the indices as `[500000, 1, 1]` and reshapes the
  `[500000, 1, 64]` result; entry `(p, k)` of either is the table at `(row (idx p), k)`. For the binary relation the two
  programs spell the same gather. A change of float format of the table is the identity on the extended reals.
-/
import proofs.«111962_j21973052686562_2_alg».proof.Proof.Gen.KernelIdeal
import proofs.«111962_j21973052686562_2_alg».proof.Proof.Gen.ReferenceIdeal
import proofs.«111962_j21973052686562_2_alg».proof.Proof.LibHostLayout
import Idealize.ShloMosaic.Lib.Pipeline.Value
import Idealize.ShloMosaic.Lib.ValueIdx

noncomputable section

namespace Cert.Gathers

open Idealize.ShloMosaic Idealize.ShloMosaic.ValueIdx

/-- The table row a start index selects: the index read signed, clamped into the table's 100000 rows. -/
def rowOfIdx (v : BitVec 32) : Fin 100000 := ⟨min v.toInt.toNat 99999, by omega⟩

/-- A node index as both programs read it: a negative one counts from the end of the table. -/
def wrap (v : BitVec 32) : BitVec 32 := Scalar.select (IntOp.cmpi .slt v 0#32) (IntOp.addi v 100000#32) v

section KernelSide
open Cert.KernelIdeal Cert.KernelIdeal.Gen
local notation "gA" => gather_S100000x64_S500000x1_S500000x64_1_0_n_n_0_1_164

/-- The kernel program's gather of rows by a `[500000, 1]` index array, read at `(p, k)`. -/
theorem gatherA_apply {α : Type} (x : S100000x64.Idx → α) (idx : IVec S500000x1 32) (p : Fin 500000) (k : Fin 64) :
    Host.gather gA x idx (ix2 p k) = x (ix2 (rowOfIdx (idx (ix2 p (0 : Fin 1)))) k) := by
  unfold Host.gather
  refine congrArg x (funext fun a => Fin.ext ?_)
  match a with
  | ⟨0, _⟩ =>
    show GatherDims.start gA (ix2 p k) idx 0 + GatherDims.batchCoord gA (ix2 p k) 0 + GatherDims.offCoord gA (ix2 p k) 0 = _
    rw [GatherDims.batchCoord_eq_zero _ _ _ (by decide), GatherDims.offCoord_eq_zero _ _ _ (by decide)]
    simp only [Nat.add_zero]
    unfold GatherDims.start
    rw [dif_pos (show (0 : Fin 2) ∈ GatherDims.startIndexMap gA from by decide)]
    have hsi : GatherDims.siIdx gA (ix2 p k) ⟨List.idxOf (0 : Fin 2) (GatherDims.startIndexMap gA),
        List.idxOf_lt_length_iff.2 (by decide)⟩ = ix2 p (0 : Fin 1) := by
      funext b; refine Fin.ext ?_
      match b with
      | ⟨0, _⟩ => rfl
      | ⟨1, _⟩ => rfl
    rw [hsi]
    rfl
  | ⟨1, _⟩ =>
    show GatherDims.start gA (ix2 p k) idx 1 + GatherDims.batchCoord gA (ix2 p k) 1 + GatherDims.offCoord gA (ix2 p k) 1 = k.val
    rw [GatherDims.batchCoord_eq_zero _ _ _ (by decide)]
    unfold GatherDims.start
    rw [dif_neg (show ¬ (1 : Fin 2) ∈ GatherDims.startIndexMap gA from by decide)]
    unfold GatherDims.offCoord
    rw [dif_pos (show (1 : Fin 2) ∈ GatherDims.sKept gA from by decide)]
    simp only [Nat.zero_add, Nat.add_zero]
    rfl

/-- The kernel program's start indices for the unary relation at `(p, 0)`: the wrapped node index of atom `p`. -/
theorem idxA_apply (a1 : IVec S500000x1 32) (hsc : S500000x1.ShapeCasts S500000) (hb0 : S_.BroadcastsInDim S500000 ![])
    (hb1 : S500000.BroadcastsInDim S500000x1 ![0]) (p : Fin 500000) :
    broadcastInDim S500000x1 ![0] hb1
      (select (cmpi .slt (shapeCast S500000 a1 hsc) (broadcastInDim S500000 ![] hb0 (constantI S_ 32 0#32)))
        (addi (shapeCast S500000 a1 hsc) (broadcastInDim S500000 ![] hb0 (constantI S_ 32 100000#32))) (shapeCast S500000 a1 hsc))
      (ix2 p (0 : Fin 1)) = wrap (a1 (ix2 p (0 : Fin 1))) := by
  rw [Cert.LibHostLayout.broadcastInDim_a_a1_apply]
  have hv : shapeCast S500000 a1 hsc (ix1 p) = a1 (ix2 p (0 : Fin 1)) :=
    shapeCast_apply a1 hsc (ix1 p) (ix2 p (0 : Fin 1)) (by
      rw [Shape.rowMajor_val_two, Shape.rowMajor_val_one]
      show p.val * 1 + 0 = p.val
      omega)
  show Scalar.select (IntOp.cmpi .slt (shapeCast S500000 a1 hsc (ix1 p)) (broadcastInDim S500000 ![] hb0 (constantI S_ 32 0#32) (ix1 p)))
      (IntOp.addi (shapeCast S500000 a1 hsc (ix1 p)) (broadcastInDim S500000 ![] hb0 (constantI S_ 32 100000#32) (ix1 p)))
      (shapeCast S500000 a1 hsc (ix1 p)) = _
  rw [hv, broadcastInDim_apply ![] hb0 _ (ix1 p) ix0 (fun a => a.elim0), broadcastInDim_apply ![] hb0 _ (ix1 p) ix0 (fun a => a.elim0)]
  rfl

end KernelSide

section ReferenceSide
open Cert.ReferenceIdeal Cert.ReferenceIdeal.Gen
local notation "gB" => gather_S100000x64_S500000x1x1_S500000x1x64_2_0_n_n_0_2_164

/-- The reference's gather of rows by a `[500000, 1, 1]` index array, read at `(p, u, k)`. -/
theorem gatherB_apply {α : Type} (x : S100000x64.Idx → α) (idx : IVec S500000x1x1 32) (p : Fin 500000) (u : Fin 1) (k : Fin 64) :
    Host.gather gB x idx (ix3 p u k) = x (ix2 (rowOfIdx (idx (ix3 p u (0 : Fin 1)))) k) := by
  unfold Host.gather
  refine congrArg x (funext fun a => Fin.ext ?_)
  match a with
  | ⟨0, _⟩ =>
    show GatherDims.start gB (ix3 p u k) idx 0 + GatherDims.batchCoord gB (ix3 p u k) 0 + GatherDims.offCoord gB (ix3 p u k) 0 = _
    rw [GatherDims.batchCoord_eq_zero _ _ _ (by decide), GatherDims.offCoord_eq_zero _ _ _ (by decide)]
    simp only [Nat.add_zero]
    unfold GatherDims.start
    rw [dif_pos (show (0 : Fin 2) ∈ GatherDims.startIndexMap gB from by decide)]
    have hsi : GatherDims.siIdx gB (ix3 p u k) ⟨List.idxOf (0 : Fin 2) (GatherDims.startIndexMap gB),
        List.idxOf_lt_length_iff.2 (by decide)⟩ = ix3 p u (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start gB (ix3 p u k) idx 1 + GatherDims.batchCoord gB (ix3 p u k) 1 + GatherDims.offCoord gB (ix3 p u k) 1 = k.val
    rw [GatherDims.batchCoord_eq_zero _ _ _ (by decide)]
    unfold GatherDims.start
    rw [dif_neg (show ¬ (1 : Fin 2) ∈ GatherDims.startIndexMap gB from by decide)]
    unfold GatherDims.offCoord
    rw [dif_pos (show (1 : Fin 2) ∈ GatherDims.sKept gB from by decide)]
    simp only [Nat.zero_add, Nat.add_zero]
    rfl

/-- The reference's start indices for the unary relation at `(p, 0, 0)`: the wrapped node index of atom `p`. -/
theorem idxB_apply (a1 : IVec S500000x1 32) (hb0 : S_.BroadcastsInDim S500000x1 ![])
    (hb1 : S500000x1.BroadcastsInDim S500000x1x1 ![0, 1]) (p : Fin 500000) :
    broadcastInDim S500000x1x1 ![0, 1] hb1
      (select (cmpi .slt a1 (broadcastInDim S500000x1 ![] hb0 (constantI S_ 32 0#32)))
        (addi a1 (broadcastInDim S500000x1 ![] hb0 (constantI S_ 32 100000#32))) a1)
      (ix3 p (0 : Fin 1) (0 : Fin 1)) = wrap (a1 (ix2 p (0 : Fin 1))) := by
  rw [broadcastInDim_apply ![0, 1] hb1 _ (ix3 p (0 : Fin 1) (0 : Fin 1)) (ix2 p (0 : Fin 1)) (fun a => by
    match a with
    | ⟨0, _⟩ => rfl
    | ⟨1, _⟩ => rfl)]
  show Scalar.select (IntOp.cmpi .slt (a1 (ix2 p (0 : Fin 1))) (broadcastInDim S500000x1 ![] hb0 (constantI S_ 32 0#32) (ix2 p (0 : Fin 1))))
      (IntOp.addi (a1 (ix2 p (0 : Fin 1))) (broadcastInDim S500000x1 ![] hb0 (constantI S_ 32 100000#32) (ix2 p (0 : Fin 1))))
      (a1 (ix2 p (0 : Fin 1))) = _
  rw [broadcastInDim_apply ![] hb0 _ (ix2 p (0 : Fin 1)) ix0 (fun a => a.elim0), broadcastInDim_apply ![] hb0 _ (ix2 p (0 : Fin 1)) ix0 (fun a => a.elim0)]
  rfl

end ReferenceSide

/-- THE UNARY RELATION'S ROWS: the kernel program's gather and the reference's reshaped gather are one array. -/
theorem rows1_eq (a0 : Cert.KernelIdeal.S100000x64.Idx → EReal) (a1 : IVec Cert.KernelIdeal.S500000x1 32)
    (hlt : FTy.bits .bf16 < FTy.bits .f32)
    (hsc : Cert.KernelIdeal.S500000x1.ShapeCasts Cert.KernelIdeal.S500000)
    (hb0 : Cert.KernelIdeal.S_.BroadcastsInDim Cert.KernelIdeal.S500000 ![])
    (hb1 : Cert.KernelIdeal.S500000.BroadcastsInDim Cert.KernelIdeal.S500000x1 ![0])
    (hb0' : Cert.ReferenceIdeal.S_.BroadcastsInDim Cert.ReferenceIdeal.S500000x1 ![])
    (hb1' : Cert.ReferenceIdeal.S500000x1.BroadcastsInDim Cert.ReferenceIdeal.S500000x1x1 ![0, 1])
    (hsc' : Cert.ReferenceIdeal.S500000x1x64.ShapeCasts Cert.ReferenceIdeal.S500000x64) :
    (Host.gather Cert.KernelIdeal.gather_S100000x64_S500000x1_S500000x64_1_0_n_n_0_1_164
        (truncf (F := Ideal) .bf16 (a0 : FVec Ideal Cert.KernelIdeal.S100000x64 .f32) hlt)
        (broadcastInDim Cert.KernelIdeal.S500000x1 ![0] hb1
          (select (cmpi .slt (shapeCast Cert.KernelIdeal.S500000 a1 hsc) (broadcastInDim Cert.KernelIdeal.S500000 ![] hb0 (constantI Cert.KernelIdeal.S_ 32 0#32)))
            (addi (shapeCast Cert.KernelIdeal.S500000 a1 hsc) (broadcastInDim Cert.KernelIdeal.S500000 ![] hb0 (constantI Cert.KernelIdeal.S_ 32 100000#32)))
            (shapeCast Cert.KernelIdeal.S500000 a1 hsc))) : Cert.KernelIdeal.S500000x64.Idx → EReal)
    = shapeCast Cert.ReferenceIdeal.S500000x64
        (Host.gather Cert.ReferenceIdeal.gather_S100000x64_S500000x1x1_S500000x1x64_2_0_n_n_0_2_164 a0
          (broadcastInDim Cert.ReferenceIdeal.S500000x1x1 ![0, 1] hb1'
            (select (cmpi .slt a1 (broadcastInDim Cert.ReferenceIdeal.S500000x1 ![] hb0' (constantI Cert.ReferenceIdeal.S_ 32 0#32)))
              (addi a1 (broadcastInDim Cert.ReferenceIdeal.S500000x1 ![] hb0' (constantI Cert.ReferenceIdeal.S_ 32 100000#32))) a1))) hsc' := by
  funext j
  obtain ⟨p, k, rfl⟩ : ∃ (p : Fin 500000) (k : Fin 64), j = ix2 p k := ⟨j 0, j 1, eq_ix2 j⟩
  rw [gatherA_apply, idxA_apply]
  rw [shapeCast_apply _ hsc' (ix2 p k) (ix3 p (0 : Fin 1) k) (by
    rw [Shape.rowMajor_val_three, Shape.rowMajor_val_two]
    show (p.val * 1 + 0) * 64 + k.val = p.val * 64 + k.val
    omega)]
  rw [gatherB_apply, idxB_apply]
  rfl

/-- THE BINARY RELATION'S ROWS: the two programs spell one gather (the float format of the table aside). -/
theorem rows2_eq (a0 : Cert.KernelIdeal.S100000x64.Idx → EReal) (a2 : IVec Cert.KernelIdeal.S1000000x2 32)
    (hlt : FTy.bits .bf16 < FTy.bits .f32)
    (hb0 : Cert.KernelIdeal.S_.BroadcastsInDim Cert.KernelIdeal.S1000000x2 ![])
    (hb1 : Cert.KernelIdeal.S1000000x2.BroadcastsInDim Cert.KernelIdeal.S1000000x2x1 ![0, 1])
    (hsc : Cert.KernelIdeal.S1000000x2x64.ShapeCasts Cert.KernelIdeal.S1000000x128)
    (hb0' : Cert.ReferenceIdeal.S_.BroadcastsInDim Cert.ReferenceIdeal.S1000000x2 ![])
    (hb1' : Cert.ReferenceIdeal.S1000000x2.BroadcastsInDim Cert.ReferenceIdeal.S1000000x2x1 ![0, 1])
    (hsc' : Cert.ReferenceIdeal.S1000000x2x64.ShapeCasts Cert.ReferenceIdeal.S1000000x128) :
    (shapeCast Cert.KernelIdeal.S1000000x128
        (Host.gather Cert.KernelIdeal.gather_S100000x64_S1000000x2x1_S1000000x2x64_2_0_n_n_0_2_164
          (truncf (F := Ideal) .bf16 (a0 : FVec Ideal Cert.KernelIdeal.S100000x64 .f32) hlt)
          (broadcastInDim Cert.KernelIdeal.S1000000x2x1 ![0, 1] hb1
            (select (cmpi .slt a2 (broadcastInDim Cert.KernelIdeal.S1000000x2 ![] hb0 (constantI Cert.KernelIdeal.S_ 32 0#32)))
              (addi a2 (broadcastInDim Cert.KernelIdeal.S1000000x2 ![] hb0 (constantI Cert.KernelIdeal.S_ 32 100000#32))) a2))) hsc
      : Cert.KernelIdeal.S1000000x128.Idx → EReal)
    = shapeCast Cert.ReferenceIdeal.S1000000x128
        (Host.gather Cert.ReferenceIdeal.gather_S100000x64_S1000000x2x1_S1000000x2x64_2_0_n_n_0_2_164 a0
          (broadcastInDim Cert.ReferenceIdeal.S1000000x2x1 ![0, 1] hb1'
            (select (cmpi .slt a2 (broadcastInDim Cert.ReferenceIdeal.S1000000x2 ![] hb0' (constantI Cert.ReferenceIdeal.S_ 32 0#32)))
              (addi a2 (broadcastInDim Cert.ReferenceIdeal.S1000000x2 ![] hb0' (constantI Cert.ReferenceIdeal.S_ 32 100000#32))) a2))) hsc' :=
  rfl

end Cert.Gathers

end
-- ==== Proof.Bridge.lean ====
/-
  The two programs compute one function.

  Three facts join the idealized kernel's network to the reference's. A bias reshaped to a one-row array and read back
  as that row is the bias. The rows the two programs gather are the same rows. And the update's first layer on the
  embeddings and the aggregate joined side by side is the sum of two products: the `128` terms of each contraction split
  into the first `64` (the embeddings against the upper half of the weights) and the last `64` (the aggregate against
  the lower half) — a regrouping of a finite sum, which holds on the extended reals without any finiteness.
-/
import proofs.«111962_j21973052686562_2_alg».proof.Proof.KernelValue
import proofs.«111962_j21973052686562_2_alg».proof.Proof.RefValue
import proofs.«111962_j21973052686562_2_alg».proof.Proof.Gathers

set_option maxRecDepth 16384

noncomputable section

namespace Cert.Bridge

open Idealize.ShloMosaic Idealize.ShloMosaic.ValueIdx Cert.Layers Cert.KernelIdeal.Upd
open Cert.KernelIdeal.Whole Cert.ReferenceIdeal.Net

/-- A vector reshaped to a one-row array, its one row read back, is the vector. -/
theorem rowOf_reshape {h : ℕ} (b : (⟨1, ![h]⟩ : Shape).Idx → EReal) (hs : (⟨1, ![h]⟩ : Shape).ShapeCasts ⟨2, ![1, h]⟩) :
    rowOf (shapeCast ⟨2, ![1, h]⟩ b hs) = b := by
  funext i
  unfold rowOf
  rw [shapeCast_apply b hs (ix2 (0 : Fin 1) (i 0)) i (by
    rw [Shape.rowMajor_val_one, Shape.rowMajor_val_two]
    show (i 0).val = 0 * h + (i 0).val
    omega)]

/-- The product of two arrays joined side by side with a weight matrix is the sum of each array's product with its half
    of the matrix. -/
theorem mm_concat (X A : Cert.ReferenceIdeal.S100000x64.Idx → EReal) (W : Cert.ReferenceIdeal.S128x64.Idx → EReal)
    (hc : Shape.Concatenates [Cert.ReferenceIdeal.S100000x64, Cert.ReferenceIdeal.S100000x64] Cert.ReferenceIdeal.S100000x128 1)
    (hs0 : Cert.KernelIdeal.S128x64.Slices ![0, 0] Cert.KernelIdeal.S64x64)
    (hs1 : Cert.KernelIdeal.S128x64.Slices ![64, 0] Cert.KernelIdeal.S64x64) :
    mm (concatenate Cert.ReferenceIdeal.S100000x128 1 [⟨Cert.ReferenceIdeal.S100000x64, X⟩, ⟨Cert.ReferenceIdeal.S100000x64, A⟩] hc : Cert.ReferenceIdeal.S100000x128.Idx → EReal) W
      = plus (mm X (extractStridedSlice Cert.KernelIdeal.S64x64 ![0, 0] W hs0)) (mm A (extractStridedSlice Cert.KernelIdeal.S64x64 ![64, 0] W hs1)) := by
  funext j
  obtain ⟨p, q, rfl⟩ : ∃ (p : Fin 100000) (q : Fin 64), j = ix2 p q := ⟨j 0, j 1, eq_ix2 j⟩
  unfold mm plus
  refine (Fin.sum_univ_add (fun k : Fin (64 + 64) =>
    (concatenate Cert.ReferenceIdeal.S100000x128 1 [⟨Cert.ReferenceIdeal.S100000x64, X⟩, ⟨Cert.ReferenceIdeal.S100000x64, A⟩] hc : Cert.ReferenceIdeal.S100000x128.Idx → EReal) (ix2 p k)
      * W (ix2 k q))).trans ?_
  refine congrArg₂ (· + ·) (Finset.sum_congr rfl fun k _ => ?_) (Finset.sum_congr rfl fun k _ => ?_)
  · have e1 : (concatenate Cert.ReferenceIdeal.S100000x128 1 [⟨Cert.ReferenceIdeal.S100000x64, X⟩, ⟨Cert.ReferenceIdeal.S100000x64, A⟩] hc : Cert.ReferenceIdeal.S100000x128.Idx → EReal)
        (ix2 p (Fin.castAdd 64 k)) = X (ix2 p k) :=
      concatenate_pair_apply_left 1 X A hc (ix2 p (Fin.castAdd 64 k)) rfl (ix2 p k) (fun b => by
        match b with
        | ⟨0, _⟩ => rfl
        | ⟨1, _⟩ => rfl)
    have e2 : extractStridedSlice Cert.KernelIdeal.S64x64 ![0, 0] W hs0 (ix2 k q) = W (ix2 (Fin.castAdd 64 k) q) :=
      extractStridedSlice_apply ![0, 0] W hs0 (ix2 k q) (ix2 (Fin.castAdd 64 k) q) (fun a => by
        match a with
        | ⟨0, _⟩ => show k.val = 0 + k.val; omega
        | ⟨1, _⟩ => show q.val = 0 + q.val; omega)
    show _ * _ = _ * _
    rw [e1, e2]
  · have e1 : (concatenate Cert.ReferenceIdeal.S100000x128 1 [⟨Cert.ReferenceIdeal.S100000x64, X⟩, ⟨Cert.ReferenceIdeal.S100000x64, A⟩] hc : Cert.ReferenceIdeal.S100000x128.Idx → EReal)
        (ix2 p (Fin.natAdd 64 k)) = A (ix2 p k) :=
      concatenate_pair_apply_right 1 X A hc (ix2 p (Fin.natAdd 64 k)) rfl rfl (ix2 p k) (fun b hb => by
        match b with
        | ⟨0, _⟩ => rfl
        | ⟨1, _⟩ => exact absurd rfl hb) (by
        show k.val + 64 = 64 + k.val
        omega)
    have e2 : extractStridedSlice Cert.KernelIdeal.S64x64 ![64, 0] W hs1 (ix2 k q) = W (ix2 (Fin.natAdd 64 k) q) :=
      extractStridedSlice_apply ![64, 0] W hs1 (ix2 k q) (ix2 (Fin.natAdd 64 k) q) (fun a => by
        match a with
        | ⟨0, _⟩ => show 64 + k.val = 64 + k.val; rfl
        | ⟨1, _⟩ => show q.val = 0 + q.val; omega)
    show _ * _ = _ * _
    rw [e1, e2]

/-- The two programs' messages of the unary relation are one array. -/
theorem msgs1_eq (a0 : FVec Ideal Cert.KernelIdeal.S100000x64 .f32) (a1 : IVec Cert.KernelIdeal.S500000x1 32)
    (a3 : FVec Ideal Cert.KernelIdeal.S64x64 .f32) (a4 : FVec Ideal Cert.KernelIdeal.S64 .f32)
    (a5 : FVec Ideal Cert.KernelIdeal.S64x64 .f32) (a6 : FVec Ideal Cert.KernelIdeal.S64 .f32) :
    msgs1K a0 a1 a3 a4 a5 a6 = msgs1R a0 a1 a3 a4 a5 a6 := by
  unfold msgs1K msgs1R rows1K rows1R
  rw [rowOf_reshape, rowOf_reshape, Cert.Gathers.rows1_eq]

/-- The two programs' messages of the binary relation are one array. -/
theorem msgs2_eq (a0 : FVec Ideal Cert.KernelIdeal.S100000x64 .f32) (a2 : IVec Cert.KernelIdeal.S1000000x2 32)
    (a7 : FVec Ideal Cert.KernelIdeal.S128x128 .f32) (a8 : FVec Ideal Cert.KernelIdeal.S128 .f32)
    (a9 : FVec Ideal Cert.KernelIdeal.S128x128 .f32) (a10 : FVec Ideal Cert.KernelIdeal.S128 .f32) :
    msgs2K a0 a2 a7 a8 a9 a10 = msgs2R a0 a2 a7 a8 a9 a10 := by
  unfold msgs2K msgs2R rows2K rows2R
  rw [rowOf_reshape, rowOf_reshape, Cert.Gathers.rows2_eq]

/-- The two programs sum the messages into the nodes by the same scatter-adds. -/
theorem agg_eq (a1 : IVec Cert.KernelIdeal.S500000x1 32) (a2 : IVec Cert.KernelIdeal.S1000000x2 32)
    (M1 : Cert.KernelIdeal.S500000x64.Idx → EReal) (M2 : Cert.KernelIdeal.S1000000x128.Idx → EReal) :
    aggK a1 a2 M1 M2 = aggR a1 a2 M1 M2 := rfl

/-- THE BRIDGE: the idealized kernel's network and the reference's are one function of the arguments. -/
theorem net_eq (a0 : FVec Ideal Cert.KernelIdeal.S100000x64 .f32) (a1 : IVec Cert.KernelIdeal.S500000x1 32) (a2 : IVec Cert.KernelIdeal.S1000000x2 32)
    (a3 : FVec Ideal Cert.KernelIdeal.S64x64 .f32) (a4 : FVec Ideal Cert.KernelIdeal.S64 .f32) (a5 : FVec Ideal Cert.KernelIdeal.S64x64 .f32) (a6 : FVec Ideal Cert.KernelIdeal.S64 .f32)
    (a7 : FVec Ideal Cert.KernelIdeal.S128x128 .f32) (a8 : FVec Ideal Cert.KernelIdeal.S128 .f32) (a9 : FVec Ideal Cert.KernelIdeal.S128x128 .f32) (a10 : FVec Ideal Cert.KernelIdeal.S128 .f32)
    (a11 : FVec Ideal Cert.KernelIdeal.S128x64 .f32) (a12 : FVec Ideal Cert.KernelIdeal.S64 .f32) (a13 : FVec Ideal Cert.KernelIdeal.S64x64 .f32) (a14 : FVec Ideal Cert.KernelIdeal.S64 .f32) :
    netK a0 a1 a2 a3 a4 a5 a6 a7 a8 a9 a10 a11 a12 a13 a14 = netR a0 a1 a2 a3 a4 a5 a6 a7 a8 a9 a10 a11 a12 a13 a14 := by
  unfold netK netR
  rw [msgs1_eq, msgs2_eq, agg_eq, rowOf_reshape, rowOf_reshape]
  unfold update dense
  rw [mm_concat]

end Cert.Bridge

end
-- ==== Proof.lean ====
/-
  A relational message-passing layer: the tiled kernel program and the plain reference compute one function.

  Both programs gather, for each ground atom of a unary and of a binary relation, the node-table rows its arguments
  name; run the relation's two dense layers (with a relu between) on those rows; add every message into the node its
  argument slot names; and update each node from its embedding and its aggregate by two more dense layers. The kernel
  program runs the three networks as pipelined regions over blocks of 10000 rows, carries the gathered rows and the
  messages in a narrower float format, and multiplies the embedding and the aggregate by the two halves of the first
  update matrix separately; the reference does each step on whole arrays and multiplies the two joined side by side by
  the whole matrix.

  Over the extended reals a change of float format is the identity and a matrix product is a finite sum. Each entry of
  a dense layer depends on one row of its input, so a row block of a region's result is the same rows of the layer on
  the whole array, and the blocks tile the result. The kernel's two products are the reference's one with its
  contraction sum split into its first and last 64 terms: a regrouping of a finite sum, valid without any finiteness.
  The node indices are read the same way by both programs, and the scatter-adds are the same operations on equal
  operands. So the two results are equal entry by entry, and the precondition is never opened.

  The three frames are the generated ones (the reference's is its generated run with the result dropped); the ideal
  pass rewrote nothing, so the kernel's idealization is the program's own text.
-/
import proofs.«111962_j21973052686562_2_alg».proof.Defs
import proofs.«111962_j21973052686562_2_alg».proof.Proof.Gen.Kernel
import proofs.«111962_j21973052686562_2_alg».proof.Proof.Gen.Kernel.Skeleton
import proofs.«111962_j21973052686562_2_alg».proof.Proof.Gen.Kernel.Launch
import proofs.«111962_j21973052686562_2_alg».proof.Proof.Gen.Kernel.Points
import proofs.«111962_j21973052686562_2_alg».proof.Proof.Gen.Kernel.Frame
import proofs.«111962_j21973052686562_2_alg».proof.Proof.Gen.KernelIdeal
import proofs.«111962_j21973052686562_2_alg».proof.Proof.Gen.KernelIdeal.Skeleton
import proofs.«111962_j21973052686562_2_alg».proof.Proof.Gen.KernelIdeal.Launch
import proofs.«111962_j21973052686562_2_alg».proof.Proof.Gen.KernelIdeal.Points
import proofs.«111962_j21973052686562_2_alg».proof.Proof.Gen.KernelIdeal.Frame
import proofs.«111962_j21973052686562_2_alg».proof.Proof.Gen.ReferenceIdeal
import proofs.«111962_j21973052686562_2_alg».proof.Proof.Gen.Pre_finite_inputs
import proofs.«111962_j21973052686562_2_alg».proof.Proof.Gen.ReferenceIdeal.Run
import proofs.«111962_j21973052686562_2_alg».proof.Proof.Gen.ReferenceIdeal.Read
import proofs.«111962_j21973052686562_2_alg».proof.Proof.KernelValue
import proofs.«111962_j21973052686562_2_alg».proof.Proof.RefValue
import proofs.«111962_j21973052686562_2_alg».proof.Proof.Bridge
import Idealize.ShloMosaic.Adequacy
import Idealize.ShloMosaic.Init

noncomputable section

namespace Cert.Proof

open Idealize.ShloMosaic Idealize.SL.Sem Cert.Kernel

/-- The kernel program as printed runs, nothing faulting, and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the network of the arguments in their
    result arrays: the kernel's by its three regions read back to the launch memory, the reference's by its run, the two
    networks one function. -/
theorem algebraic : Cert.algebraic_KernelIdeal_ReferenceIdeal := by
  intro m ρ m' ρ' _ hagree
  refine ⟨fun c => Cert.KernelIdeal.Whole.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]
  exact (Cert.ReferenceIdeal.Net.hostTerm_eq _ _ _ _ _ _ _ _ _ _ _ _ _ _ _).trans (Cert.Bridge.net_eq _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
